-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S4096x256 .f32 .bf16
  ∧ IdealRules.truncf_extf.Statement Cert.KernelIdeal.S256x256 .f32 .bf16
  ∧ IdealRules.truncf_extf.Statement Cert.KernelIdeal.S4096x256 .f32 .bf16
  ∧ IdealRules.truncf_extf.Statement Cert.KernelIdeal.S1024x256 .f32 .bf16
  ∧ IdealRules.truncf_extf.Statement Cert.KernelIdeal.S256x256 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x256x256 : Shape := ⟨4, ![8, 16, 256, 256]⟩
abbrev S256x256 : Shape := ⟨2, ![256, 256]⟩
abbrev S256 : Shape := ⟨1, ![256]⟩
abbrev S_ : Shape := ⟨0, ![]⟩

class Facts : Prop where
  bcast_S_S8x16x256x256 : S_.BroadcastsInDim S8x16x256x256 (![] : Fin 0 → Fin S8x16x256x256.rank)
  reducesTo_S8x16x256x256_S_d0_1_2_3 : S8x16x256x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x16x256x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S8x16x256x256 .f32 := Host.absf main_arg0
  let main_cst : FVec F S_ .f32 := constant S_ .f32 0x7F800000#32
  let main_v1 : FVec F S8x16x256x256 .f32 := broadcastInDim S8x16x256x256 ![] bcast_S_S8x16x256x256 main_cst
  let main_v2 : IVec S8x16x256x256 1 := cmpf .olt main_v0 main_v1
  let main_c : IVec S_ 1 := constantI S_ 1 1#1
  let main_v3 : IVec S_ 1 := (fun x v => Host.reduce IntOp.andi x v reducesTo_S8x16x256x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8x16x256x256 : Shape := ⟨4, ![8, 16, 256, 256]⟩
abbrev S256x256 : Shape := ⟨2, ![256, 256]⟩
abbrev S256 : Shape := ⟨1, ![256]⟩
abbrev S8x4096x256 : Shape := ⟨3, ![8, 4096, 256]⟩
abbrev S1x256 : Shape := ⟨2, ![1, 256]⟩
abbrev S1x4096x256 : Shape := ⟨3, ![1, 4096, 256]⟩
abbrev S1x1024x256 : Shape := ⟨3, ![1, 1024, 256]⟩
abbrev S4096x256 : Shape := ⟨2, ![4096, 256]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 13
  | .vmem => 13
  | .smem => 0
  | _ => 0

abbrev bufTy : (tb : Table) → Fin (tcTables nBuf tb) → BufTy
  | .hbm, ⟨0, _⟩ => ⟨S8x16x256x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x4096x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S8x4096x256, .f32⟩
  | .hbm, ⟨12, _⟩ => ⟨S8x16x256x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x1024x256, .f32⟩
  | .local _ .vmem, ⟨9, _⟩ => ⟨S1x1024x256, .f32⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | _, _ => ⟨S8x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S8x16x256x256_S8x4096x256 : S8x16x256x256.ShapeCasts S8x4096x256
  shapeCasts_S256_S1x256 : S256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  h_S1x1024x256 : 0 < S1x1024x256.numel
  shapeCasts_S1x1024x256_S1024x256 : S1x1024x256.ShapeCasts S1024x256
  broadcasts_S1x256_S1024x256 : S1x256.Broadcasts S1024x256
  inb_S4096x256_S1024x256_0_0 : ∀ a, (![0, 0] : Fin 2 → Nat) a + S1024x256.size a ≤ S4096x256.size a
  h_S1024x256 : 0 < S1024x256.numel
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  inb_S4096x256_S1024x256_1024_0 : ∀ a, (![1024, 0] : Fin 2 → Nat) a + S1024x256.size a ≤ S4096x256.size a
  inb_S4096x256_S1024x256_2048_0 : ∀ a, (![2048, 0] : Fin 2 → Nat) a + S1024x256.size a ≤ S4096x256.size a
  inb_S4096x256_S1024x256_3072_0 : ∀ a, (![3072, 0] : Fin 2 → Nat) a + S1024x256.size a ≤ S4096x256.size a
  inb_S1x1024x256_S1x1024x256_0_0_0 : ∀ a, (![0, 0, 0] : Fin 3 → Nat) a + S1x1024x256.size a ≤ S1x1024x256.size a
  shapeCasts_S1024x256_S1x1024x256 : S1024x256.ShapeCasts S1x1024x256
  shapeCasts_S8x4096x256_S8x16x256x256 : S8x4096x256.ShapeCasts S8x16x256x256
  dot_S4096x256_S256x256_S4096x256_1_1_0_0_n_n_wf : DotDims.WF S4096x256 S256x256 S4096x256 [1] [1] [0] [0] [] []
  dot_S1024x256_S256x256_S1024x256_1_1_0_0_n_n_wf : DotDims.WF S1024x256 S256x256 S1024x256 [1] [1] [0] [0] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x4096x256.size a
  hwx0_0 : ∀ i : grid0.Coords, EltTy.bits .f32 = 32 ∨ (Rect.block (s := S8x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x256.size a ≤ S8x4096x256.size a
  hwx0_7 : ∀ i : grid0.Coords, EltTy.bits .f32 = 32 ∨ (Rect.block (s := S8x4096x256) S1x1024x256.size (cc0_transform_7 i) (hinb0_7 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x16x256x256 : Shape := ⟨4, ![8, 16, 256, 256]⟩
abbrev S256x256 : Shape := ⟨2, ![256, 256]⟩
abbrev S256 : Shape := ⟨1, ![256]⟩
abbrev S8x4096x256 : Shape := ⟨3, ![8, 4096, 256]⟩
abbrev S1x1x256 : Shape := ⟨3, ![1, 1, 256]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x16x256x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8x4096x256, .f32⟩
  | .hbm, ⟨8, _⟩ => ⟨S8x4096x256, .f32⟩
  | .hbm, ⟨9, _⟩ => ⟨S1x1x256, .f32⟩
  | .hbm, ⟨10, _⟩ => ⟨S8x4096x256, .f32⟩
  | .hbm, ⟨11, _⟩ => ⟨S8x4096x256, .f32⟩
  | .hbm, ⟨12, _⟩ => ⟨S8x4096x256, .f32⟩
  | .hbm, ⟨13, _⟩ => ⟨S1x1x256, .f32⟩
  | .hbm, ⟨14, _⟩ => ⟨S8x4096x256, .f32⟩
  | .hbm, ⟨15, _⟩ => ⟨S8x4096x256, .f32⟩
  | .hbm, ⟨16, _⟩ => ⟨S8x4096x256, .f32⟩
  | .hbm, ⟨17, _⟩ => ⟨S1x1x256, .f32⟩
  | .hbm, ⟨18, _⟩ => ⟨S8x4096x256, .f32⟩
  | .hbm, ⟨19, _⟩ => ⟨S8x4096x256, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x256, .f32⟩
  | .hbm, ⟨39, _⟩ => ⟨S8x16x256x256, .f32⟩
  | _, _ => ⟨S8x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  shapeCasts_S8x16x256x256_S8x4096x256 : S8x16x256x256.ShapeCasts S8x4096x256
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  shapeCasts_S8x4096x256_S8x16x256x256 : S8x4096x256.ShapeCasts S8x16x256x256
  dot_S8x4096x256_S256x256_S8x4096x256_2_1_01_0_n_n_wf : DotDims.WF S8x4096x256 S256x256 S8x4096x256 [2] [1] [0, 1] [0] [] []
  dot_S8x4096x256_S8x4096x256_S8x4096x4096_2_2_1_1_0_0_wf : DotDims.WF S8x4096x256 S8x4096x256 S8x4096x4096 [2] [2] [1] [1] [0] [0]
  dot_S8x4096x4096_S8x4096x256_S8x4096x256_2_1_1_2_0_0_wf : DotDims.WF S8x4096x4096 S8x4096x256 S8x4096x256 [2] [1] [1] [2] [0] [0]

variable [Facts₀]

def dot_S8x4096x256_S256x256_S8x4096x256_2_1_01_0_n_n : DotDims S8x4096x256 S256x256 S8x4096x256 where
  lhsContracting := [2]
  rhsContracting := [1]
  lhsNonContracting := [0, 1]
  rhsNonContracting := [0]
  lhsBatch := []
  rhsBatch := []
  wf := dot_S8x4096x256_S256x256_S8x4096x256_2_1_01_0_n_n_wf
def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf
def dot_S8x4096x4096_S8x4096x256_S8x4096x256_2_1_1_2_0_0 : DotDims S8x4096x4096 S8x4096x256 S8x4096x256 where
  lhsContracting := [2]
  rhsContracting := [1]
  lhsNonContracting := [1]
  rhsNonContracting := [2]
  lhsBatch := [0]
  rhsBatch := [0]
  wf := dot_S8x4096x4096_S8x4096x256_S8x4096x256_2_1_1_2_0_0_wf

class Facts : Prop extends Facts₀ where

variable [Facts]
-- ==== Proof.KernelTile.lean ====
/-
  The attention kernel's body as pure functions of the tiles it loads.

  At one grid point the body reads a 1024-row tile of tokens, the query weights and bias, and — in four blocks of 1024
  rows each — the key tiles (a leading part and a remainder part) and the value tile it keeps between points; it
  leaves one 1024 × 256 output tile.  `outTile` is that output as the program's payload terms compose it; `online`
  is the same value arranged block by block: the scores of a block, the running row maximum, the rescaling factor,
  the block's weights, the running sum of weights and the running weighted sum of values, and at the end their
  quotient.  The two are one term.  The last part reads what the run leaves in the output and in the three kept tiles.
-/
import proofs.«174132_j72181220376900_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Tile

open Cert.KernelIdeal Cert.KernelIdeal.Gen

variable {F : FTy → Type} [FloatOps F]

/-- The output tile as the body composes it from the query-side loads and the twelve key / value block loads. -/
def outTile (xq : Vec F S1x1024x256 .f32) (wq : Vec F S256x256 .f32) (bq : Vec F S1x256 .f32)
    (kh0 kl0 vv0 kh1 kl1 vv1 kh2 kl2 vv2 kh3 kl3 vv3 : Vec F S1024x256 .bf16) : FVec F S1x1024x256 .f32 :=
  k0_pay1 (k0_pay10 xq wq bq) (k0_pay26 (k0_pay9 xq wq bq) (k0_pay10 xq wq bq) (k0_pay20 (k0_pay9 xq wq bq) (k0_pay10 xq wq bq) k0_pay11 kh0 kl0 kh1 kl1) kh2 kl2) (k0_pay29 (k0_pay9 xq wq bq) (k0_pay10 xq wq bq) (k0_pay20 (k0_pay9 xq wq bq) (k0_pay10 xq wq bq) k0_pay11 kh0 kl0 kh1 kl1) (k0_pay23 (k0_pay9 xq wq bq) (k0_pay10 xq wq bq) k0_pay11 k0_pay12 kh0 kl0 kh1 kl1) (k0_pay24 (k0_pay9 xq wq bq) (k0_pay10 xq wq bq) k0_pay11 kh0 kl0 kh1 kl1) kh2 kl2) (k0_pay30 (k0_pay9 xq wq bq) (k0_pay10 xq wq bq) (k0_pay18 (k0_pay9 xq wq bq) (k0_pay10 xq wq bq) k0_pay11 k0_pay13 kh0 kl0 vv0) vv1 (k0_pay20 (k0_pay9 xq wq bq) (k0_pay10 xq wq bq) k0_pay11 kh0 kl0 kh1 kl1) (k0_pay21 (k0_pay9 xq wq bq) (k0_pay10 xq wq bq) k0_pay11 kh0 kl0 kh1 kl1) (k0_pay22 (k0_pay9 xq wq bq) (k0_pay10 xq wq bq) k0_pay11 kh0 kl0 kh1 kl1) kh2 kl2 vv2) kh3 vv3 (k0_pay31 (k0_pay9 xq wq bq) kh3 kl3) (constant S1024x1024 .f32 0x00000000#32)

/-! ## The same value, block by block -/

/-- Scores of one block: the leading and remainder parts of the queries against those of the keys, three products. -/
def scoresT (qh ql : FVec F S1024x256 .bf16) (kh kl : Vec F S1024x256 .bf16) : FVec F S1024x1024 .f32 :=
  addf (addf (matmul dot_S1024x256_S1024x256_S1024x1024_1_1_0_0_n_n none qh kh (constant S1024x1024 .f32 0x00000000#32))
      (matmul dot_S1024x256_S1024x256_S1024x1024_1_1_0_0_n_n none qh kl (constant S1024x1024 .f32 0x00000000#32)))
    (matmul dot_S1024x256_S1024x256_S1024x1024_1_1_0_0_n_n none ql kh (constant S1024x1024 .f32 0x00000000#32))

/-- Row maxima of a block's scores, as a column. -/
def rowMax (s : FVec F S1024x1024 .f32) : FVec F S1024x1 .f32 :=
  shapeCast S1024x1 (multiReduction .maximumf [1] S1024 s 0xFF800000#32 reduces_S1024x1024_S1024 (.inl rfl) rfl) shapeCasts_S1024_S1024x1

/-- Row sums of a block's weights, as a column. -/
def rowSum (p : FVec F S1024x1024 .f32) : FVec F S1024x1 .f32 :=
  shapeCast S1024x1 (multiReduction .add [1] S1024 p 0x00000000#32 reduces_S1024x1024_S1024 (.inl rfl) rfl) shapeCasts_S1024_S1024x1

def mNext (m : FVec F S1024x1 .f32) (s : FVec F S1024x1024 .f32) : FVec F S1024x1 .f32 := maximumf m (rowMax s)
def alphaT (m m' : FVec F S1024x1 .f32) : FVec F S1024x1 .f32 := exp (subf m m')
def pT (s : FVec F S1024x1024 .f32) (m' : FVec F S1024x1 .f32) : FVec F S1024x1024 .f32 :=
  exp (subf s (broadcastTo S1024x1024 m' broadcasts_S1024x1_S1024x1024))
def lNext (α l : FVec F S1024x1 .f32) (p : FVec F S1024x1024 .f32) : FVec F S1024x1 .f32 := addf (mulf α l) (rowSum p)
def accNext (α : FVec F S1024x1 .f32) (acc : FVec F S1024x256 .f32) (p : FVec F S1024x1024 .f32) (v : Vec F S1024x256 .bf16) :
    FVec F S1024x256 .f32 :=
  addf (mulf (broadcastTo S1024x256 α broadcasts_S1024x1_S1024x256) acc)
    (matmul dot_S1024x1024_S1024x256_S1024x256_1_0_0_1_n_n none (truncf .bf16 p bitsLt_bf16_f32) v (constant S1024x256 .f32 0x00000000#32))
def outOf (acc : FVec F S1024x256 .f32) (l : FVec F S1024x1 .f32) : FVec F S1x1024x256 .f32 :=
  shapeCast S1x1024x256 (divf acc (broadcastTo S1024x256 l broadcasts_S1024x1_S1024x256)) shapeCasts_S1024x256_S1x1024x256

/-- The four blocks in order, from the running maximum -∞ and zero sums. -/
def online (qh ql : FVec F S1024x256 .bf16) (kh0 kl0 vv0 kh1 kl1 vv1 kh2 kl2 vv2 kh3 kl3 vv3 : Vec F S1024x256 .bf16) : FVec F S1x1024x256 .f32 :=
  let s0 := scoresT qh ql kh0 kl0
  let m1 := mNext k0_pay11 s0
  let a1 := alphaT k0_pay11 m1
  let p1 := pT s0 m1
  let l1 := lNext a1 k0_pay12 p1
  let c1 := accNext a1 k0_pay13 p1 vv0
  let s1 := scoresT qh ql kh1 kl1
  let m2 := mNext m1 s1
  let a2 := alphaT m1 m2
  let p2 := pT s1 m2
  let l2 := lNext a2 l1 p2
  let c2 := accNext a2 c1 p2 vv1
  let s2 := scoresT qh ql kh2 kl2
  let m3 := mNext m2 s2
  let a3 := alphaT m2 m3
  let p3 := pT s2 m3
  let l3 := lNext a3 l2 p3
  let c3 := accNext a3 c2 p3 vv2
  let s3 := scoresT qh ql kh3 kl3
  let m4 := mNext m3 s3
  let a4 := alphaT m3 m4
  let p4 := pT s3 m4
  let l4 := lNext a4 l3 p4
  let c4 := accNext a4 c3 p4 vv3
  outOf c4 l4

theorem outTile_eq_online (xq : Vec F S1x1024x256 .f32) (wq : Vec F S256x256 .f32) (bq : Vec F S1x256 .f32) (kh0 kl0 vv0 kh1 kl1 vv1 kh2 kl2 vv2 kh3 kl3 vv3 : Vec F S1024x256 .bf16) :
    outTile xq wq bq kh0 kl0 vv0 kh1 kl1 vv1 kh2 kl2 vv2 kh3 kl3 vv3
      = online (k0_pay9 xq wq bq) (k0_pay10 xq wq bq) kh0 kl0 vv0 kh1 kl1 vv1 kh2 kl2 vv2 kh3 kl3 vv3 := rfl

/-! ## What the run leaves, as these functions of the blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- The 1024 token rows the query tile reads at grid point `i`. -/
def rowsQ (i : grid0.Coords) (x0 : Vec F S1x4096x256 .f32) : Vec F S1x1024x256 .f32 :=
  View.ld x0 (Rect.unit (s := S1x4096x256) (k0_off1 i) S1x1024x256.size (k0_off1_inb i))

/-- Rows 1024·c … 1024·c + 1023 of a kept tile. -/
def chunk0 (T : Vec F S4096x256 .bf16) : Vec F S1024x256 .bf16 :=
  View.ld T (Rect.unit (s := S4096x256) ![0, 0] S1024x256.size inb_S4096x256_S1024x256_0_0)
def chunk1 (T : Vec F S4096x256 .bf16) : Vec F S1024x256 .bf16 :=
  View.ld T (Rect.unit (s := S4096x256) ![1024, 0] S1024x256.size inb_S4096x256_S1024x256_1024_0)
def chunk2 (T : Vec F S4096x256 .bf16) : Vec F S1024x256 .bf16 :=
  View.ld T (Rect.unit (s := S4096x256) ![2048, 0] S1024x256.size inb_S4096x256_S1024x256_2048_0)
def chunk3 (T : Vec F S4096x256 .bf16) : Vec F S1024x256 .bf16 :=
  View.ld T (Rect.unit (s := S4096x256) ![3072, 0] S1024x256.size inb_S4096x256_S1024x256_3072_0)

/-- The output tile from the query-side tiles and the three kept tiles whole. -/
def outFull (xq : Vec F S1x1024x256 .f32) (wq : Vec F S256x256 .f32) (bq : Vec F S1x256 .f32)
    (KH KL VV : Vec F S4096x256 .bf16) : FVec F S1x1024x256 .f32 :=
  outTile xq wq bq (chunk0 KH) (chunk0 KL) (chunk0 VV) (chunk1 KH) (chunk1 KL) (chunk1 VV)
    (chunk2 KH) (chunk2 KL) (chunk2 VV) (chunk3 KH) (chunk3 KL) (chunk3 VV)

/-- At a point that is not the first of its batch entry: the output tile of the kept tiles as found. -/
theorem outB (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole) (hc0 : ¬cond0_0 i)     (x0 : Vec F S1x4096x256 .f32) (x1 : Vec F S256x256 .f32) (x2 : Vec F S1x256 .f32) (x3 : Vec F S256x256 .f32) (x4 : Vec F S1x256 .f32) (x5 : Vec F S256x256 .f32) (x6 : Vec F S1x256 .f32) (xs0 : Vec F S4096x256 .bf16) (xs1 : Vec F S4096x256 .bf16) (xs2 : Vec F S4096x256 .bf16) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2 = outFull (rowsQ i x0) x1 x2 xs0 xs1 xs2 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)]
  unfold kernelRun0_B
  dsimp only
  sl_unfold_words
  rw [View.canon_unit_zero hz3]
  simp only [View.readAt_eq_ld, harg2.read_unread, harg3.read_unread, harg4.read_unread, harg10.read_unread,
    harg11.read_unread, harg12.read_unread, View.ld_unit_zero (S := S256x256) hz2, View.ld_unit_zero (S := S1x256) hz2]
  rfl

/-- At the first point of a batch entry the three kept tiles are written: the key projection's leading part, -/
theorem keptA0 (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole) (hc0 : cond0_0 i)     (x0 : Vec F S1x4096x256 .f32) (x1 : Vec F S256x256 .f32) (x2 : Vec F S1x256 .f32) (x3 : Vec F S256x256 .f32) (x4 : Vec F S1x256 .f32) (x5 : Vec F S256x256 .f32) (x6 : Vec F S1x256 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 = k0_pay4 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg5.read_unread, harg6.read_unread,
    View.ld_unit_zero (S := S1x4096x256) hz3, View.ld_unit_zero (S := S256x256) hz2, View.ld_unit_zero (S := S1x256) hz2]

/-- its remainder part, -/
theorem keptA1 (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole) (hc0 : cond0_0 i)     (x0 : Vec F S1x4096x256 .f32) (x1 : Vec F S256x256 .f32) (x2 : Vec F S1x256 .f32) (x3 : Vec F S256x256 .f32) (x4 : Vec F S1x256 .f32) (x5 : Vec F S256x256 .f32) (x6 : Vec F S1x256 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 = k0_pay5 x0 x3 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg5.read_unread, harg6.read_unread,
    View.ld_unit_zero (S := S1x4096x256) hz3, View.ld_unit_zero (S := S256x256) hz2, View.ld_unit_zero (S := S1x256) hz2]

/-- and the value projection. -/
theorem keptA2 (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole) (hc0 : cond0_0 i)     (x0 : Vec F S1x4096x256 .f32) (x1 : Vec F S256x256 .f32) (x2 : Vec F S1x256 .f32) (x3 : Vec F S256x256 .f32) (x4 : Vec F S1x256 .f32) (x5 : Vec F S256x256 .f32) (x6 : Vec F S1x256 .f32) :
    sout0_A_2 c i arg2 harg2 arg3 harg3 arg4 harg4 arg5 harg5 arg6 harg6 arg7 harg7 arg8 harg8 arg9 harg9 arg10 harg10 arg11 harg11 arg12 harg12 hc0 x0 x1 x2 x3 x4 x5 x6 = k0_pay7 (k0_pay6 x0 x5 x6) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz2]
  simp only [View.readAt_eq_ld, harg2.read_unread, harg7.read_unread, harg8.read_unread,
    View.ld_unit_zero (S := S1x4096x256) hz3, View.ld_unit_zero (S := S256x256) hz2, View.ld_unit_zero (S := S1x256) hz2]

/-- The output tile there reads them back as just written. -/
theorem outA (c : Dev nD) (i : grid0.Coords) (arg2 : Memref sig .tc .vmem S1x4096x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x1024x256 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole) (hc0 : cond0_0 i)     (x0 : Vec F S1x4096x256 .f32) (x1 : Vec F S256x256 .f32) (x2 : Vec F S1x256 .f32) (x3 : Vec F S256x256 .f32) (x4 : Vec F S1x256 .f32) (x5 : Vec F S256x256 .f32) (x6 : Vec F S1x256 .f32) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 = outFull (rowsQ i x0) x1 x2 (k0_pay4 x0 x3 x4) (k0_pay5 x0 x3 x4) (k0_pay7 (k0_pay6 x0 x5 x6)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero hz3]
  simp only [View.readCov_eq_canon', View.canon_unit_zero (S := S4096x256) hz2, View.readAt_eq_ld, harg2.read_unread, harg3.read_unread,
    harg4.read_unread, harg5.read_unread, harg6.read_unread, harg7.read_unread, harg8.read_unread,
    View.ld_unit_zero (S := S1x4096x256) hz3, View.ld_unit_zero (S := S256x256) hz2, View.ld_unit_zero (S := S1x256) hz2]
  rfl

end Cert.KernelIdeal.Tile

end
-- ==== Proof.KernelPoints.lean ====
/-
  What the kernel's buffers hold after each grid point, in closed form.

  The grid has 8 × 4 points; point t works on batch entry t / 4 and query tile t % 4.  The token block of a point is
  the whole 4096 × 256 slab of its batch entry, the six weight and bias blocks are the whole arrays at every point,
  and the output block is rows 1024·(t % 4) … of the batch entry's slab.  At the first point of a batch entry the
  body writes the three kept tiles — the key projection's leading and remainder parts and the value projection of
  that slab — and the other three points of the entry find them unchanged; so after EVERY point the kept tiles are
  those projections of the point's own batch entry, and the output tile is the attention tile of the point's query
  rows against them.  By induction on the point.
-/
import proofs.«174132_j72181220376900_2_alg».proof.Proof.KernelTile
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Points

open Cert.KernelIdeal Cert.KernelIdeal.Gen Cert.KernelIdeal.Tile

variable {F : FTy → Type} [FloatOps F]
variable (m : (ℓ : Loc nD τ sig) → Buf (Elt F) ℓ)

/-- The printed index maps and the query tile's row offset, decided over the 32 points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 4 ∧ win0_7.index t (1 : Fin 3) = t.val % 4 ∧ win0_7.index t (2 : Fin 3) = 0
    ∧ k0_off1 (grid0.coords t) = ![0, (t.val % 4) * 1024, 0] :=
  (by decide +kernel : ∀ t : Fin grid0.N, _)

/-- The batch entry of a point. -/
def bat (t : Fin cfg0.N) : Fin 8 := ⟨t.val / 4, by have := t.isLt; have hN : cfg0.N = 32 := N_0; omega⟩

/-- The token slab of batch entry b, as a block: entry (0, n, d) is token (b, n, d) of the array the region finds. -/
def XB (c : Dev nD) (b : Fin 8) : Vec F S1x4096x256 .f32 := fun y => V m c main_v0 (ix3 b (y 1) (y 2))

/-- The token block of point t is the slab of its batch entry. -/
theorem iblk0_eq (c : Dev nD) (t : Fin cfg0.N) : (iblk m c 0 t : Vec F S1x4096x256 .f32) = XB m c (bat t) := by
  obtain ⟨e0, e1, e2, -⟩ := idx_facts t
  funext j
  unfold iblk
  rw [View.read_apply]
  show V m c main_v0 _ = V m c main_v0 _
  congr 1
  funext a; apply Fin.ext
  match a with
  | ⟨0, _⟩ => show win0_0.index t (0 : Fin 3) * 1 + 1 * (j 0).val = t.val / 4; have hj : (j 0).val < 1 := (j 0).isLt; omega
  | ⟨1, _⟩ => show win0_0.index t (1 : Fin 3) * 4096 + 1 * (j 1).val = (j 1).val; omega
  | ⟨2, _⟩ => show win0_0.index t (2 : Fin 3) * 256 + 1 * (j 2).val = (j 2).val; omega

theorem iblk1_eq (c : Dev nD) (t : Fin cfg0.N) : (iblk m c 1 t : Vec F S256x256 .f32) = V m c main_arg1 := by
  obtain ⟨-, -, -, e10, e11, e20, e21, e30, e31, e40, e41, e50, e51, e60, e61, -⟩ := idx_facts t
  funext j
  unfold iblk
  rw [View.read_apply]
  show V m c main_arg1 _ = V m c main_arg1 j
  congr 1
  funext a; apply Fin.ext
  match a with
  | ⟨0, _⟩ => show win0_1.index t (0 : Fin 2) * 256 + 1 * (j 0).val = (j 0).val; omega
  | ⟨1, _⟩ => show win0_1.index t (1 : Fin 2) * 256 + 1 * (j 1).val = (j 1).val; omega

theorem iblk2_eq (c : Dev nD) (t : Fin cfg0.N) : (iblk m c 2 t : Vec F S1x256 .f32) = V m c main_v1 := by
  obtain ⟨-, -, -, e10, e11, e20, e21, e30, e31, e40, e41, e50, e51, e60, e61, -⟩ := idx_facts t
  funext j
  unfold iblk
  rw [View.read_apply]
  show V m c main_v1 _ = V m c main_v1 j
  congr 1
  funext a; apply Fin.ext
  match a with
  | ⟨0, _⟩ => show win0_2.index t (0 : Fin 2) * 1 + 1 * (j 0).val = (j 0).val; omega
  | ⟨1, _⟩ => show win0_2.index t (1 : Fin 2) * 256 + 1 * (j 1).val = (j 1).val; omega

theorem iblk3_eq (c : Dev nD) (t : Fin cfg0.N) : (iblk m c 3 t : Vec F S256x256 .f32) = V m c main_arg3 := by
  obtain ⟨-, -, -, e10, e11, e20, e21, e30, e31, e40, e41, e50, e51, e60, e61, -⟩ := idx_facts t
  funext j
  unfold iblk
  rw [View.read_apply]
  show V m c main_arg3 _ = V m c main_arg3 j
  congr 1
  funext a; apply Fin.ext
  match a with
  | ⟨0, _⟩ => show win0_3.index t (0 : Fin 2) * 256 + 1 * (j 0).val = (j 0).val; omega
  | ⟨1, _⟩ => show win0_3.index t (1 : Fin 2) * 256 + 1 * (j 1).val = (j 1).val; omega

theorem iblk4_eq (c : Dev nD) (t : Fin cfg0.N) : (iblk m c 4 t : Vec F S1x256 .f32) = V m c main_v2 := by
  obtain ⟨-, -, -, e10, e11, e20, e21, e30, e31, e40, e41, e50, e51, e60, e61, -⟩ := idx_facts t
  funext j
  unfold iblk
  rw [View.read_apply]
  show V m c main_v2 _ = V m c main_v2 j
  congr 1
  funext a; apply Fin.ext
  match a with
  | ⟨0, _⟩ => show win0_4.index t (0 : Fin 2) * 1 + 1 * (j 0).val = (j 0).val; omega
  | ⟨1, _⟩ => show win0_4.index t (1 : Fin 2) * 256 + 1 * (j 1).val = (j 1).val; omega

theorem iblk5_eq (c : Dev nD) (t : Fin cfg0.N) : (iblk m c 5 t : Vec F S256x256 .f32) = V m c main_arg5 := by
  obtain ⟨-, -, -, e10, e11, e20, e21, e30, e31, e40, e41, e50, e51, e60, e61, -⟩ := idx_facts t
  funext j
  unfold iblk
  rw [View.read_apply]
  show V m c main_arg5 _ = V m c main_arg5 j
  congr 1
  funext a; apply Fin.ext
  match a with
  | ⟨0, _⟩ => show win0_5.index t (0 : Fin 2) * 256 + 1 * (j 0).val = (j 0).val; omega
  | ⟨1, _⟩ => show win0_5.index t (1 : Fin 2) * 256 + 1 * (j 1).val = (j 1).val; omega

theorem iblk6_eq (c : Dev nD) (t : Fin cfg0.N) : (iblk m c 6 t : Vec F S1x256 .f32) = V m c main_v3 := by
  obtain ⟨-, -, -, e10, e11, e20, e21, e30, e31, e40, e41, e50, e51, e60, e61, -⟩ := idx_facts t
  funext j
  unfold iblk
  rw [View.read_apply]
  show V m c main_v3 _ = V m c main_v3 j
  congr 1
  funext a; apply Fin.ext
  match a with
  | ⟨0, _⟩ => show win0_6.index t (0 : Fin 2) * 1 + 1 * (j 0).val = (j 0).val; omega
  | ⟨1, _⟩ => show win0_6.index t (1 : Fin 2) * 256 + 1 * (j 1).val = (j 1).val; omega

/-- The kept tiles of batch entry b: the key projection's leading and remainder parts and the value projection. -/
def KHb (c : Dev nD) (b : Fin 8) : Vec F S4096x256 .bf16 := k0_pay4 (XB m c b) (V m c main_arg3) (V m c main_v2)
def KLb (c : Dev nD) (b : Fin 8) : Vec F S4096x256 .bf16 := k0_pay5 (XB m c b) (V m c main_arg3) (V m c main_v2)
def VVb (c : Dev nD) (b : Fin 8) : Vec F S4096x256 .bf16 := k0_pay7 (k0_pay6 (XB m c b) (V m c main_arg5) (V m c main_v3))

/-- The output tile of point t. -/
def outAt (c : Dev nD) (t : Fin cfg0.N) : Vec F S1x1024x256 .f32 :=
  outFull (rowsQ (grid0.coords t) (XB m c (bat t))) (V m c main_arg1) (V m c main_v1) (KHb m c (bat t)) (KLb m c (bat t)) (VVb m c (bat t))

/-- At a first point of a batch entry: the output tile and the kept tiles just written. -/
theorem outsAt_first (c : Dev nD) (t : Fin cfg0.N) (hA : t.val % 4 = 0) :
    outsAt0 m c t.val t.isLt = (outAt m c t, KHb m c (bat t), KLb m c (bat t), VVb m c (bat t)) := by
  have h7 := outA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr hA) (iblk m c 0 t) (iblk m c 1 t) (iblk m c 2 t) (iblk m c 3 t) (iblk m c 4 t) (iblk m c 5 t) (iblk m c 6 t)
  have h0 := keptA0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr hA) (iblk m c 0 t) (iblk m c 1 t) (iblk m c 2 t) (iblk m c 3 t) (iblk m c 4 t) (iblk m c 5 t) (iblk m c 6 t)
  have h1 := keptA1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr hA) (iblk m c 0 t) (iblk m c 1 t) (iblk m c 2 t) (iblk m c 3 t) (iblk m c 4 t) (iblk m c 5 t) (iblk m c 6 t)
  have h2 := keptA2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr hA) (iblk m c 0 t) (iblk m c 1 t) (iblk m c 2 t) (iblk m c 3 t) (iblk m c 4 t) (iblk m c 5 t) (iblk m c 6 t)
  rw [outsAt0_A m c t hA]
  rw [iblk0_eq, iblk1_eq, iblk2_eq, iblk3_eq, iblk4_eq, iblk5_eq, iblk6_eq] at h7 h0 h1 h2 ⊢
  rw [h7, h0, h1, h2]
  rfl

/-- At a later point of a batch entry: the kept tiles as found, and the output tile of them. -/
theorem outsAt_later (c : Dev nD) (t : Fin cfg0.N) (hB : ¬t.val % 4 = 0) (kh kl vv : Vec F S4096x256 .bf16) (o : Vec F S1x1024x256 .f32)
    (hprev : outsAt0 m c (t.val - 1) (Nat.lt_of_le_of_lt (Nat.sub_le _ _) t.isLt) = (o, kh, kl, vv)) :
    outsAt0 m c t.val t.isLt
      = (outFull (rowsQ (grid0.coords t) (XB m c (bat t))) (V m c main_arg1) (V m c main_v1) kh kl vv, kh, kl, vv) := by
  have h7 := outB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun hc => hB ((hcond0_0 t).mp hc)) (iblk m c 0 t) (iblk m c 1 t) (iblk m c 2 t) (iblk m c 3 t) (iblk m c 4 t) (iblk m c 5 t) (iblk m c 6 t) kh kl vv
  rw [outsAt0_B m c t hB, hprev]
  dsimp only
  rw [iblk0_eq, iblk1_eq, iblk2_eq, iblk3_eq, iblk4_eq, iblk5_eq, iblk6_eq] at h7 ⊢
  rw [h7]
  rfl

/-- After every point: the point's output tile, and the kept tiles of the point's batch entry. -/
theorem outsAt_eq (c : Dev nD) (n : ℕ) : ∀ t : Fin cfg0.N, t.val = n →
    outsAt0 m c t.val t.isLt = (outAt m c t, KHb m c (bat t), KLb m c (bat t), VVb m c (bat t)) := by
  induction n using Nat.strong_induction_on with
  | _ n ih =>
    intro t ht
    by_cases h0 : t.val % 4 = 0
    · exact outsAt_first m c t h0
    · have hlt : t.val - 1 < cfg0.N := Nat.lt_of_le_of_lt (Nat.sub_le _ _) t.isLt
      have e := ih (t.val - 1) (by omega) ⟨t.val - 1, hlt⟩ rfl
      have hb : bat ⟨t.val - 1, hlt⟩ = bat t := Fin.ext (by show (t.val - 1) / 4 = t.val / 4; omega)
      rw [hb] at e
      exact outsAt_later m c t h0 _ _ _ _ e

/-! ## The arrays the host wrote before the region -/

/-- The token array the region finds is the argument recast from [8, 16, 256, 256] to [8, 4096, 256]; -/
theorem V_v0 (c : Dev nD) : (V m c main_v0 : S8x4096x256.Idx → Elt F .f32)
    = shapeCast S8x4096x256 (m ((c : Thread nD τ).loc main_arg0)) shapeCasts_S8x16x256x256_S8x4096x256 := by
  show StableHlo.after hostOps0 (fun b => m (c, b)) (Proc.devRef .tc main_v0) = _
  after_results; rfl

/-- and the three biases are the arguments recast as one-row matrices. -/
theorem V_v1 (c : Dev nD) : (V m c main_v1 : S1x256.Idx → Elt F .f32)
    = shapeCast S1x256 (m ((c : Thread nD τ).loc main_arg2)) shapeCasts_S256_S1x256 := by
  show StableHlo.after hostOps0 (fun b => m (c, b)) (Proc.devRef .tc main_v1) = _
  after_results; rfl
theorem V_v2 (c : Dev nD) : (V m c main_v2 : S1x256.Idx → Elt F .f32)
    = shapeCast S1x256 (m ((c : Thread nD τ).loc main_arg4)) shapeCasts_S256_S1x256 := by
  show StableHlo.after hostOps0 (fun b => m (c, b)) (Proc.devRef .tc main_v2) = _
  after_results; rfl
theorem V_v3 (c : Dev nD) : (V m c main_v3 : S1x256.Idx → Elt F .f32)
    = shapeCast S1x256 (m ((c : Thread nD τ).loc main_arg6)) shapeCasts_S256_S1x256 := by
  show StableHlo.after hostOps0 (fun b => m (c, b)) (Proc.devRef .tc main_v3) = _
  after_results; rfl

end Cert.KernelIdeal.Points

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.LibColForm.lean ====
/-
  A column read at an index: a vector recast as a one-column matrix, and a one-column matrix stretched along its rows.
-/
import Idealize.ShloMosaic.Lib.ValueIdx
import Idealize.ShloMosaic.Lib.Pipeline.Value

namespace Cert.ColForm

open Idealize.ShloMosaic Idealize.ShloMosaic.ValueIdx

/-- A vector of length `n` recast as an `n × 1` matrix, read at row `j` and column `0`, is the vector at `j`: both
    positions are the `j`-th in row-major order. -/
theorem col_of_reshape {α : Type} {n : Nat} (v : (⟨1, ![n]⟩ : Shape).Idx → α)
    (h : (⟨1, ![n]⟩ : Shape).ShapeCasts ⟨2, ![n, 1]⟩) (j : Fin n) :
    shapeCast (⟨2, ![n, 1]⟩ : Shape) v h (ix2 j (0 : Fin 1)) = v (ix1 j) := by
  refine shapeCast_apply v h (ix2 j (0 : Fin 1)) (ix1 j) ?_
  rw [Shape.rowMajor_val_one, Shape.rowMajor_val_two]
  show j.val = j.val * 1 + 0
  omega

/-- An `m × 1` column stretched to `m × n` reads, at `(a, b)`, the column's entry `a`. -/
theorem broadcastCol_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun ax => ?_
  match ax with
  | ⟨0, _⟩ =>
    show a.val = if m = 1 then 0 else a.val
    by_cases hm : m = 1
    · rw [if_pos hm]; have := a.isLt; omega
    · rw [if_neg hm]
  | ⟨1, _⟩ => rfl

end Cert.ColForm
-- ==== Proof.LibLaneSum.lean ====
/-
  A sum along the second axis of a two-dimensional tile, read at a row.

  The float add-reduction of an m×n tile over its second axis, at the ideal values, holds at row p the finite sum of
  the row's n entries; the accumulator word is the zero word, the sum's neutral element, and does not appear.
-/
import Idealize.ShloMosaic.PureOps.Ideal.Laws
import Idealize.ShloMosaic.Lib.ValueIdx

noncomputable section

open scoped BigOperators

namespace Idealize.ShloMosaic.LaneSum

open Idealize.ShloMosaic.ValueIdx

/-- The add-reduction over axis 1 of an m×n tile, read at row p: the sum over j of the entries (p, j). -/
theorem laneSum_apply {m n : Nat} (src : FVec Ideal ⟨2, ![m, n]⟩ .f32)
    (h : (⟨2, ![m, n]⟩ : Shape).Reduces [(1 : Fin 2)] ⟨1, ![m]⟩) (hφ : FKind.Formats FTy.f32)
    (hacc : (0x00000000#32 : BitVec FTy.f32.bits) = FKind.add.neutral FTy.f32 hφ) (p : Fin m) :
    multiReduction .add [(1 : Fin 2)] ⟨1, ![m]⟩ src 0x00000000#32 h hφ hacc (ix1 p) = ∑ j : Fin n, src (ix2 p j) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => simp [Shape.Reduces.liftVal]
  | ⟨1, _⟩ => simp [Shape.Reduces.liftVal]

end Idealize.ShloMosaic.LaneSum

end
-- ==== Proof.LibERealSum.lean ====
/-
  Finite sums of real numbers read as extended reals.

  The coercion ℝ → EReal is additive, so it commutes with finite sums: the coercion of a finite sum
  of reals is the sum of the coercions.  Consequently a finite sum of extended reals each of which
  is the coercion of a real is the coercion of the real sum, and a finite sum of products of two
  such families is the coercion of the real sum of products (the coercion is multiplicative too).
  No infinity can arise in such sums, so they may be computed in ℝ.
-/
import Mathlib.Data.EReal.Operations
import Mathlib.Algebra.BigOperators.Group.Finset.Basic

open scoped BigOperators

namespace ERealSum

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of extended reals that are termwise coercions of reals is the coercion of the real sum. -/
theorem sum_eq_coe {ι : Type*} (s : Finset ι) (g : ι → EReal) (f : ι → ℝ) (h : ∀ i ∈ s, g i = ((f i : ℝ) : EReal)) :
    ∑ i ∈ s, g i = ((∑ i ∈ s, f i : ℝ) : EReal) := by
  rw [coe_sum]; exact Finset.sum_congr rfl h

/-- A finite sum of products of two families of termwise coercions is the coercion of the real sum of products. -/
theorem sum_mul_eq_coe {ι : Type*} (s : Finset ι) (g h : ι → EReal) (f k : ι → ℝ)
    (hg : ∀ i ∈ s, g i = ((f i : ℝ) : EReal)) (hh : ∀ i ∈ s, h i = ((k i : ℝ) : EReal)) :
    ∑ i ∈ s, g i * h i = ((∑ i ∈ s, f i * k i : ℝ) : EReal) :=
  sum_eq_coe s _ _ fun i hi => by rw [hg i hi, hh i hi, ← EReal.coe_mul]

end ERealSum
-- ==== Proof.IdealTile.lean ====
/-
  Tiles of extended reals whose entries are real numbers, and the tile operations on them.

  Every operation the attention body applies — sums and products of tiles, a product of matrices accumulated into
  zero, a row maximum from -∞, a row sum, the exponential of a difference, the stretch of a column along its rows, a
  quotient by a column that is nowhere zero — takes real-valued tiles to real-valued tiles, and the entries of the
  result are the same operations on the real numbers.  No infinity can arise, so the arithmetic may be done in ℝ.
  The one place -∞ appears is the starting value of the running maximum: max(-∞, x) = x and exp(-∞ - x) = 0.
-/
import Idealize.ShloMosaic.PureOps.Ideal.Laws
import Idealize.ShloMosaic.Lib.ValueIdx
import Idealize.ShloMosaic.Lib.ValueLayout
import Idealize.ShloMosaic.Lib.Pipeline.Value
import proofs.«174132_j72181220376900_2_alg».proof.Proof.LibTileOps
import proofs.«174132_j72181220376900_2_alg».proof.Proof.LibColForm
import proofs.«174132_j72181220376900_2_alg».proof.Proof.LibLaneSum
import proofs.«174132_j72181220376900_2_alg».proof.Proof.LibERealSum

noncomputable section

open scoped BigOperators
open Idealize.ShloMosaic Idealize.ShloMosaic.ValueIdx

namespace RealTile

variable {m n k : Nat} {φ φ₁ φ₂ : FTy}

/-- The entries of the m × n tile T are the real numbers t. -/
def Real2 (T : FVec Ideal ⟨2, ![m, n]⟩ φ) (t : Fin m → Fin n → ℝ) : Prop :=
  ∀ a b, T (ix2 a b) = ((t a b : ℝ) : EReal)

/-- The entries of the m × 1 column T are the real numbers t. -/
def RealC (T : FVec Ideal ⟨2, ![m, 1]⟩ φ) (t : Fin m → ℝ) : Prop :=
  ∀ a, T (ix2 a (0 : Fin 1)) = ((t a : ℝ) : EReal)

/-- Every entry of the column is -∞. -/
def BotC (T : FVec Ideal ⟨2, ![m, 1]⟩ φ) : Prop := ∀ a, T (ix2 a (0 : Fin 1)) = (⊥ : EReal)

/-- The coercion of the reals into the extended reals commutes with max. -/
theorem coe_max (x y : ℝ) : max ((x : ℝ) : EReal) ((y : ℝ) : EReal) = ((max x y : ℝ) : EReal) :=
  (EReal.coe_strictMono.monotone.map_max).symm

theorem Real2.congr {T : FVec Ideal ⟨2, ![m, n]⟩ φ} {t t' : Fin m → Fin n → ℝ} (h : Real2 T t)
    (e : ∀ a b, t a b = t' a b) : Real2 T t' := fun a b => by rw [h a b, e a b]

theorem RealC.congr {T : FVec Ideal ⟨2, ![m, 1]⟩ φ} {t t' : Fin m → ℝ} (h : RealC T t)
    (e : ∀ a, t a = t' a) : RealC T t' := fun a => by rw [h a, e a]

/-! ## Pointwise operations -/

theorem real_addf {A B : FVec Ideal ⟨2, ![m, n]⟩ φ} {a b : Fin m → Fin n → ℝ} (hA : Real2 A a) (hB : Real2 B b) :
    Real2 (addf A B) (fun p q => a p q + b p q) := fun p q => by
  rw [addf_apply, hA p q, hB p q, ← EReal.coe_add]

theorem real_mulf {A B : FVec Ideal ⟨2, ![m, n]⟩ φ} {a b : Fin m → Fin n → ℝ} (hA : Real2 A a) (hB : Real2 B b) :
    Real2 (mulf A B) (fun p q => a p q * b p q) := fun p q => by
  rw [mulf_apply, hA p q, hB p q, ← EReal.coe_mul]

/-- A real-valued tile minus itself is the zero tile. -/
theorem real_sub_self {A : FVec Ideal ⟨2, ![m, n]⟩ φ} {a : Fin m → Fin n → ℝ} (hA : Real2 A a) :
    Real2 (subf A A) (fun _ _ => 0) := fun p q => by
  rw [subf_apply, hA p q, ← EReal.coe_sub, sub_self]

/-- A change of format keeps the entries. -/
theorem real_truncf {ψ : FTy} {A : FVec Ideal ⟨2, ![m, n]⟩ φ} {a : Fin m → Fin n → ℝ} (h : ψ.bits < φ.bits)
    (hA : Real2 A a) : Real2 (truncf ψ A h) a := fun p q => (truncf_apply A h _).trans (hA p q)

/-! ## Products of matrices into the zero tile -/

/-- The product of an m×k tile by the transpose of an n×k tile (both contracted on their columns) into the zero tile,
    read at (a, b): the sum over the contracted coordinate of the products of the entries. -/
theorem matmulNT_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

theorem real_matmulNT (w : DotDims.WF ⟨2, ![m, k]⟩ ⟨2, ![n, k]⟩ ⟨2, ![m, n]⟩ [1] [1] [0] [0] [] [])
    (prec : Option ContractPrecision) {A : FVec Ideal ⟨2, ![m, k]⟩ φ₁} {B : FVec Ideal ⟨2, ![n, k]⟩ φ₂}
    {a : Fin m → Fin k → ℝ} {b : Fin n → Fin k → ℝ} (hA : Real2 A a) (hB : Real2 B b) :
    Real2 (FloatOps.matmul (⟨[1], [1], [0], [0], [], [], w⟩ : DotDims ⟨2, ![m, k]⟩ ⟨2, ![n, k]⟩ ⟨2, ![m, n]⟩) prec A B
        (constant ⟨2, ![m, n]⟩ .f32 0x00000000#32)) (fun p q => ∑ c, a p c * b q c) := fun p q => by
  rw [matmulNT_zero_apply]
  exact ERealSum.sum_mul_eq_coe _ _ _ _ _ (fun c _ => hA p c) (fun c _ => hB q c)

theorem real_matmulNN (w : DotDims.WF ⟨2, ![m, k]⟩ ⟨2, ![k, n]⟩ ⟨2, ![m, n]⟩ [1] [0] [0] [1] [] [])
    (prec : Option ContractPrecision) {A : FVec Ideal ⟨2, ![m, k]⟩ φ₁} {B : FVec Ideal ⟨2, ![k, n]⟩ φ₂}
    {a : Fin m → Fin k → ℝ} {b : Fin k → Fin n → ℝ} (hA : Real2 A a) (hB : Real2 B b) :
    Real2 (FloatOps.matmul (⟨[1], [0], [0], [1], [], [], w⟩ : DotDims ⟨2, ![m, k]⟩ ⟨2, ![k, n]⟩ ⟨2, ![m, n]⟩) prec A B
        (constant ⟨2, ![m, n]⟩ .f32 0x00000000#32)) (fun p q => ∑ c, a p c * b c q) := fun p q => by
  rw [TileOps.matmul_zero_apply]
  exact ERealSum.sum_mul_eq_coe _ _ _ _ _ (fun c _ => hA p c) (fun c _ => hB c q)

/-! ## Row maxima and row sums, as columns -/

/-- The fold of max from -∞ over a nonempty finite family of real numbers is a real number. -/
theorem fold_max_bot_coe {ι : Type*} (s : Finset ι) (hs : s.Nonempty) (f : ι → ℝ) :
    ∃ r : ℝ, s.fold max (⊥ : EReal) (fun i => ((f i : ℝ) : EReal)) = ((r : ℝ) : EReal) := by
  induction hs using Finset.Nonempty.cons_induction with
  | singleton a => exact ⟨f a, by rw [Finset.fold_singleton]; exact max_eq_left bot_le⟩
  | cons a s ha _ ih =>
    obtain ⟨r, hr⟩ := ih
    exact ⟨max (f a) r, by rw [Finset.fold_cons, hr, coe_max]⟩

/-- The row maxima (from the word of -∞, which denotes -∞) of a real-valued tile with at least one column, recast as a
    column, are real numbers. -/
theorem real_rowMax (hn : 0 < n) {S : FVec Ideal ⟨2, ![m, n]⟩ .f32} {s : Fin m → Fin n → ℝ} (hS : Real2 S s)
    (h : (⟨2, ![m, n]⟩ : Shape).Reduces [(1 : Fin 2)] ⟨1, ![m]⟩) (hφ : FKind.Formats FTy.f32)
    (hacc : (0xFF800000#32 : BitVec FTy.f32.bits) = FKind.maximumf.neutral FTy.f32 hφ)
    (hbot : Ideal.ofBits .f32 0xFF800000#32 = (⊥ : EReal))
    (hc : (⟨1, ![m]⟩ : Shape).ShapeCasts ⟨2, ![m, 1]⟩) :
    ∃ μ : Fin m → ℝ, RealC (shapeCast (⟨2, ![m, 1]⟩ : Shape)
      (multiReduction .maximumf [(1 : Fin 2)] ⟨1, ![m]⟩ S 0xFF800000#32 h hφ hacc) hc) μ := by
  have key : ∀ p : Fin m, ∃ r : ℝ, multiReduction .maximumf [(1 : Fin 2)] ⟨1, ![m]⟩ S 0xFF800000#32 h hφ hacc (ix1 p)
      = ((r : ℝ) : EReal) := fun p => by
    rw [Ideal.multiReduction_maximumf_single]
    have e : (S ∘ h.lift (ix1 p)) = fun j : Fin n => ((s p j : ℝ) : EReal) := by
      funext j
      show S (h.lift (ix1 p) j) = _
      rw [← hS p j]
      refine congrArg S (funext fun c => Fin.ext ?_)
      rw [h.lift_val]
      match c with
      | ⟨0, _⟩ => simp [Shape.Reduces.liftVal]
      | ⟨1, _⟩ => simp [Shape.Reduces.liftVal]
    have hb : FloatOps.ofBits (F := Ideal) FTy.f32 0xFF800000#32 = (⊥ : EReal) := hbot
    rw [hb]
    show ∃ r : ℝ, (Finset.univ : Finset (Fin n)).fold max ⊥ (S ∘ h.lift (ix1 p)) = _
    rw [e]
    exact fold_max_bot_coe _ ⟨⟨0, hn⟩, Finset.mem_univ _⟩ _
  choose μ hμ using key
  exact ⟨μ, fun p => by rw [Cert.ColForm.col_of_reshape, hμ p]⟩

/-- The row sums of a real-valued tile, recast as a column. -/
theorem real_rowSum {P : FVec Ideal ⟨2, ![m, n]⟩ .f32} {p : Fin m → Fin n → ℝ} (hP : Real2 P p)
    (h : (⟨2, ![m, n]⟩ : Shape).Reduces [(1 : Fin 2)] ⟨1, ![m]⟩) (hφ : FKind.Formats FTy.f32)
    (hacc : (0x00000000#32 : BitVec FTy.f32.bits) = FKind.add.neutral FTy.f32 hφ)
    (hc : (⟨1, ![m]⟩ : Shape).ShapeCasts ⟨2, ![m, 1]⟩) :
    RealC (shapeCast (⟨2, ![m, 1]⟩ : Shape) (multiReduction .add [(1 : Fin 2)] ⟨1, ![m]⟩ P 0x00000000#32 h hφ hacc) hc)
      (fun a => ∑ j, p a j) := fun a => by
  rw [Cert.ColForm.col_of_reshape, LaneSum.laneSum_apply]
  exact ERealSum.sum_eq_coe _ _ _ fun j _ => hP a j

/-! ## Columns: the running maximum and the rescaling factor -/

theorem realC_max {A B : FVec Ideal ⟨2, ![m, 1]⟩ φ} {a b : Fin m → ℝ} (hA : RealC A a) (hB : RealC B b) :
    RealC (maximumf A B) (fun p => max (a p) (b p)) := fun p => by
  rw [maximumf_apply, hA p, hB p, coe_max]

/-- The maximum with -∞ is the other number. -/
theorem realC_max_bot {A B : FVec Ideal ⟨2, ![m, 1]⟩ φ} {b : Fin m → ℝ} (hA : BotC A) (hB : RealC B b) :
    RealC (maximumf A B) b := fun p => by
  rw [maximumf_apply, hA p, hB p]; exact max_eq_right bot_le

/-- exp(a - b) of two real columns. -/
theorem realC_exp_sub {A B : FVec Ideal ⟨2, ![m, 1]⟩ .f32} {a b : Fin m → ℝ} (hA : RealC A a) (hB : RealC B b) :
    RealC (exp (subf A B)) (fun p => Real.exp (a p - b p)) := fun p => by
  show Ideal.exp (A (ix2 p 0) - B (ix2 p 0)) = _
  rw [hA p, hB p, ← EReal.coe_sub, Ideal.exp_coe]

/-- exp(-∞ - b) = 0. -/
theorem realC_exp_bot_sub {A B : FVec Ideal ⟨2, ![m, 1]⟩ .f32} {b : Fin m → ℝ} (hA : BotC A) (hB : RealC B b) :
    RealC (exp (subf A B)) (fun _ => 0) := fun p => by
  show Ideal.exp (A (ix2 p 0) - B (ix2 p 0)) = _
  rw [hA p, hB p, EReal.bot_sub, Ideal.exp_bot, EReal.coe_zero]

/-- exp(s - μ) of a tile and a column stretched along the rows. -/
theorem real_exp_sub_col {S : FVec Ideal ⟨2, ![m, n]⟩ .f32} {M : FVec Ideal ⟨2, ![m, 1]⟩ .f32} {s : Fin m → Fin n → ℝ}
    {μ : Fin m → ℝ} (hS : Real2 S s) (hM : RealC M μ) (hb : (⟨2, ![m, 1]⟩ : Shape).Broadcasts ⟨2, ![m, n]⟩) :
    Real2 (exp (subf S (broadcastTo ⟨2, ![m, n]⟩ M hb))) (fun p j => Real.exp (s p j - μ p)) := fun p j => by
  show Ideal.exp (S (ix2 p j) - broadcastTo ⟨2, ![m, n]⟩ M hb (ix2 p j)) = _
  rw [Cert.ColForm.broadcastCol_apply, hS p j, hM p, ← EReal.coe_sub, Ideal.exp_coe]

/-- α · ℓ + r on columns. -/
theorem realC_mul_add {A L R : FVec Ideal ⟨2, ![m, 1]⟩ φ} {a l r : Fin m → ℝ} (hA : RealC A a) (hL : RealC L l)
    (hR : RealC R r) : RealC (addf (mulf A L) R) (fun p => a p * l p + r p) := fun p => by
  rw [addf_apply, mulf_apply, hA p, hL p, hR p, ← EReal.coe_mul, ← EReal.coe_add]

/-- α (stretched along the rows) · acc + pv on tiles. -/
theorem real_col_mul_add {A : FVec Ideal ⟨2, ![m, 1]⟩ φ} {C PV : FVec Ideal ⟨2, ![m, n]⟩ φ} {a : Fin m → ℝ}
    {c pv : Fin m → Fin n → ℝ} (hA : RealC A a) (hC : Real2 C c) (hPV : Real2 PV pv)
    (hb : (⟨2, ![m, 1]⟩ : Shape).Broadcasts ⟨2, ![m, n]⟩) :
    Real2 (addf (mulf (broadcastTo ⟨2, ![m, n]⟩ A hb) C) PV) (fun p e => a p * c p e + pv p e) := fun p e => by
  rw [addf_apply, mulf_apply, Cert.ColForm.broadcastCol_apply, hA p, hC p e, hPV p e, ← EReal.coe_mul, ← EReal.coe_add]

/-- The quotient of a tile by a column that is nowhere zero, recast with a leading unit axis. -/
theorem real_div_col {C : FVec Ideal ⟨2, ![m, n]⟩ .f32} {L : FVec Ideal ⟨2, ![m, 1]⟩ .f32} {c : Fin m → Fin n → ℝ}
    {l : Fin m → ℝ} (hC : Real2 C c) (hL : RealC L l) (hl : ∀ p, l p ≠ 0)
    (hb : (⟨2, ![m, 1]⟩ : Shape).Broadcasts ⟨2, ![m, n]⟩)
    (hc : (⟨2, ![m, n]⟩ : Shape).ShapeCasts ⟨3, ![1, m, n]⟩) (u : Fin 1) (p : Fin m) (e : Fin n) :
    shapeCast (⟨3, ![1, m, n]⟩ : Shape) (divf C (broadcastTo ⟨2, ![m, n]⟩ L hb)) hc (ix3 u p e)
      = ((c p e / l p : ℝ) : EReal) := by
  rw [shapeCast_ab_1ab_apply, divf_apply, Cert.ColForm.broadcastCol_apply, hC p e, hL p,
    Ideal.div_coe (hl p), ← EReal.coe_mul, mul_one_div]

end RealTile

end
-- ==== Proof.LibSoftmax.lean ====
/-
  Exp-weighted sums under a shift of the exponent: the laws behind softmax and its streamed
  (online, tile by tile) evaluation, over any finite index type.

  For scores s and values v on a finite index set,
  * softmax_shift:  ∑ⱼ (exp(s j - M) / ∑ₖ exp(s k - M)) · v j = (∑ⱼ exp(s j) · v j) / ∑ⱼ exp(s j) for every real M:
    subtracting a number from every score leaves the normalized weights' mean unchanged;
  * tile_shift, tile_shift_one:  ∑ᵣ exp(s r - μ') [· v r] = exp(-μ') · ∑ᵣ exp(s r) [· v r];
  * carry:  exp(μ - μ') · (exp(-μ) · P) + exp(-μ') · T = exp(-μ') · (P + T): a partial sum held at shift μ,
    rescaled when the shift moves to μ', plus a new tile at shift μ', is the longer partial sum at shift μ';
  * quot_shift:  (exp(-μ) · N) / (exp(-μ) · D) = N / D: the common factor cancels in the quotient.
  None of them needs the shift to be a maximum of the scores.
-/
import Mathlib

noncomputable section

open scoped BigOperators

namespace Attn

/-- Subtracting any number `M` from every score leaves the normalized weights' mean unchanged. -/
theorem softmax_shift {ι : Type*} [Fintype ι] (s v : ι → ℝ) (M : ℝ) :
    ∑ j, (Real.exp (s j - M) / ∑ j', Real.exp (s j' - M)) * v j
      = (∑ j, Real.exp (s j) * v j) / ∑ j, Real.exp (s j) := by
  have hM : Real.exp (-M) ≠ 0 := (Real.exp_pos _).ne'
  have e1 : ∀ j, Real.exp (s j - M) = Real.exp (-M) * Real.exp (s j) := fun j => by
    rw [← Real.exp_add]; congr 1; ring
  simp only [e1, ← Finset.mul_sum]
  rw [Finset.sum_div]
  refine Finset.sum_congr rfl fun j _ => ?_
  rw [mul_div_mul_left _ _ hM]; ring

/-- A tile's terms at shift `μ'` are `exp(-μ')` times its terms at shift 0. -/
theorem tile_shift {ι : Type*} [Fintype ι] (s v : ι → ℝ) (μ' : ℝ) :
    ∑ r, Real.exp (s r - μ') * v r = Real.exp (-μ') * ∑ r, Real.exp (s r) * v r := by
  rw [Finset.mul_sum]
  refine Finset.sum_congr rfl fun r _ => ?_
  rw [← mul_assoc, ← Real.exp_add]; congr 2; ring

/-- The same without values: a tile's weights at shift `μ'`. -/
theorem tile_shift_one {ι : Type*} [Fintype ι] (s : ι → ℝ) (μ' : ℝ) :
    ∑ r, Real.exp (s r - μ') = Real.exp (-μ') * ∑ r, Real.exp (s r) := by
  have := tile_shift s (fun _ => 1) μ'
  simpa using this

/-- Moving the shift from `μ` to `μ'`: the partial sum held at shift `μ`, rescaled by `exp(μ - μ')`, plus
    the new tile at shift `μ'`, is the longer partial sum held at shift `μ'`. -/
theorem carry (μ μ' P T : ℝ) :
    Real.exp (μ - μ') * (Real.exp (-μ) * P) + Real.exp (-μ') * T = Real.exp (-μ') * (P + T) := by
  rw [← mul_assoc, ← Real.exp_add, show μ - μ' + -μ = -μ' by ring]; ring

/-- The common factor `exp(-μ)` cancels in the quotient. -/
theorem quot_shift (μ N D : ℝ) : (Real.exp (-μ) * N) / (Real.exp (-μ) * D) = N / D :=
  mul_div_mul_left _ _ (Real.exp_pos _).ne'

end Attn

end
-- ==== Proof.AttnSpec.lean ====
/-
  Scaled dot-product attention over the real numbers, and its evaluation one block of keys at a time.

  For one batch entry: the tokens x (4096 × 256) are projected to queries, keys and values by
  y[n, e] = ∑_d x[n, d] · w[e, d] + b[e]; the score of query i against key j is (∑_e Q[i, e] · K[j, e]) / 16; and the
  result at (i, e) is the softmax-weighted mean of the values,
      (∑_j exp(score i j) · V[j, e]) / ∑_j exp(score i j).
  Any common shift of a row's scores leaves the mean unchanged, so the form that subtracts the row's maximum first and
  normalizes the weights before averaging is the same number (Attn.softmax_shift).

  The streamed evaluation walks the 4096 keys in four blocks of 1024, holding a running shift μ, the sum of weights
  ℓ and the weighted sum of values a, all taken at the current shift; when the shift moves from μ to μ' both are
  rescaled by exp(μ - μ').  After the c-th block ℓ = exp(-μ_c) · (sum of exp(score) over the blocks so far) and the
  same for a, whatever the shifts were, so the quotient a / ℓ after the last block is the softmax-weighted mean.
-/
import Mathlib
import Idealize.ShloMosaic.Lib.ValueIdx
import proofs.«174132_j72181220376900_2_alg».proof.Proof.LibSoftmax

noncomputable section

open scoped BigOperators
open Idealize.ShloMosaic Idealize.ShloMosaic.ValueIdx

namespace Attn

/-- A linear layer: y[n, e] = ∑_d x[n, d] · w[e, d] + b[e]. -/
def proj (x : Fin 4096 → Fin 256 → ℝ) (w : Fin 256 → Fin 256 → ℝ) (b : Fin 256 → ℝ) (n : Fin 4096) (e : Fin 256) : ℝ :=
  ∑ d, x n d * w e d + b e

/-- The scaled score of query row i against key row j. -/
def score (q k : Fin 4096 → Fin 256 → ℝ) (i j : Fin 4096) : ℝ := (∑ e, q i e * k j e) / 16

/-- The exp-weighted mean of v under scores s. -/
def wmean {ι : Type*} [Fintype ι] (s v : ι → ℝ) : ℝ := (∑ k, Real.exp (s k) * v k) / ∑ k, Real.exp (s k)

/-- One batch entry's attention output at query row n and feature e. -/
def attn (x : Fin 4096 → Fin 256 → ℝ) (wq : Fin 256 → Fin 256 → ℝ) (bq : Fin 256 → ℝ) (wk : Fin 256 → Fin 256 → ℝ)
    (bk : Fin 256 → ℝ) (wv : Fin 256 → Fin 256 → ℝ) (bv : Fin 256 → ℝ) (n : Fin 4096) (e : Fin 256) : ℝ :=
  wmean (fun j => score (proj x wq bq) (proj x wk bk) n j) (fun j => proj x wv bv j e)

/-- Row s·256 + n of the flattened token axis. -/
def flat (s : Fin 16) (n : Fin 256) : Fin 4096 := ⟨s.val * 256 + n.val, by have := s.isLt; have := n.isLt; omega⟩

/-- Token row n of the flattened axis, split back into (n / 256, n % 256). -/
def hi (n : Fin 4096) : Fin 16 := ⟨n.val / 256, by have := n.isLt; omega⟩
def lo (n : Fin 4096) : Fin 256 := ⟨n.val % 256, Nat.mod_lt _ (by norm_num)⟩

/-- The tokens of batch entry b as real numbers, from an array of extended reals over [8, 16, 256, 256]. -/
def tokens (X : (⟨4, ![8, 16, 256, 256]⟩ : Shape).Idx → EReal) (b : Fin 8) (n : Fin 4096) (d : Fin 256) : ℝ :=
  (X (ix4 b (hi n) (lo n) d)).toReal

def mat (W : (⟨2, ![256, 256]⟩ : Shape).Idx → EReal) (e d : Fin 256) : ℝ := (W (ix2 e d)).toReal
def vec (B : (⟨1, ![256]⟩ : Shape).Idx → EReal) (e : Fin 256) : ℝ := (B (ix1 e)).toReal

/-- The attention result over [8, 4096, 256], as extended reals, of argument arrays of extended reals. -/
def G3 (X : (⟨4, ![8, 16, 256, 256]⟩ : Shape).Idx → EReal) (Wq : (⟨2, ![256, 256]⟩ : Shape).Idx → EReal)
    (Bq : (⟨1, ![256]⟩ : Shape).Idx → EReal) (Wk : (⟨2, ![256, 256]⟩ : Shape).Idx → EReal)
    (Bk : (⟨1, ![256]⟩ : Shape).Idx → EReal) (Wv : (⟨2, ![256, 256]⟩ : Shape).Idx → EReal)
    (Bv : (⟨1, ![256]⟩ : Shape).Idx → EReal) (b : Fin 8) (n : Fin 4096) (e : Fin 256) : EReal :=
  ((attn (tokens X b) (mat Wq) (vec Bq) (mat Wk) (vec Bk) (mat Wv) (vec Bv) n e : ℝ) : EReal)

/-- The same over [8, 16, 256, 256]: entry (b, s, n, e) is row s·256 + n of batch entry b. -/
def G (X : (⟨4, ![8, 16, 256, 256]⟩ : Shape).Idx → EReal) (Wq : (⟨2, ![256, 256]⟩ : Shape).Idx → EReal)
    (Bq : (⟨1, ![256]⟩ : Shape).Idx → EReal) (Wk : (⟨2, ![256, 256]⟩ : Shape).Idx → EReal)
    (Bk : (⟨1, ![256]⟩ : Shape).Idx → EReal) (Wv : (⟨2, ![256, 256]⟩ : Shape).Idx → EReal)
    (Bv : (⟨1, ![256]⟩ : Shape).Idx → EReal) : (⟨4, ![8, 16, 256, 256]⟩ : Shape).Idx → EReal :=
  fun i => G3 X Wq Bq Wk Bk Wv Bv (i 0) (flat (i 1) (i 2)) (i 3)

/-- Normalizing the shifted weights first and averaging afterwards gives the weighted mean, for any shift. -/
theorem wmean_of_normalized {ι : Type*} [Fintype ι] (s v : ι → ℝ) (M : ℝ) :
    ∑ j, (Real.exp (s j - M) / ∑ j', Real.exp (s j' - M)) * v j = wmean s v :=
  softmax_shift s v M

/-- Key row c·1024 + r of the 4096 keys: block c, row r. -/
def key (c : Fin 4) (r : Fin 1024) : Fin 4096 := ⟨c.val * 1024 + r.val, by have := c.isLt; have := r.isLt; omega⟩

/-- A sum over the 4096 keys is the sum of the four blocks' sums. -/
theorem sum_keys (f : Fin 4096 → ℝ) :
    ∑ k, f k = ∑ r, f (key 0 r) + ∑ r, f (key 1 r) + ∑ r, f (key 2 r) + ∑ r, f (key 3 r) := by
  have e : ∑ k : Fin 4096, f k = ∑ p : Fin 4 × Fin 1024, f (key p.1 p.2) := by
    refine (Fintype.sum_equiv (finProdFinEquiv (m := 4) (n := 1024)) (fun p => f (key p.1 p.2)) f fun p => ?_).symm
    congr 1; apply Fin.ext
    show p.1.val * 1024 + p.2.val = p.2.val + 1024 * p.1.val
    omega
  rw [e, Fintype.sum_prod_type, Fin.sum_univ_four]

/-- The streamed evaluation over four blocks, with arbitrary shifts μ₁ … μ₄, ends at the weighted mean. The first
    block starts from ℓ = a = 0 with weight 0 on them. -/
theorem streamed (s v : Fin 4096 → ℝ) (μ1 μ2 μ3 μ4 : ℝ) :
    let l1 := (0 : ℝ) * 0 + ∑ r, Real.exp (s (key 0 r) - μ1)
    let a1 := (0 : ℝ) * 0 + ∑ r, Real.exp (s (key 0 r) - μ1) * v (key 0 r)
    let l2 := Real.exp (μ1 - μ2) * l1 + ∑ r, Real.exp (s (key 1 r) - μ2)
    let a2 := Real.exp (μ1 - μ2) * a1 + ∑ r, Real.exp (s (key 1 r) - μ2) * v (key 1 r)
    let l3 := Real.exp (μ2 - μ3) * l2 + ∑ r, Real.exp (s (key 2 r) - μ3)
    let a3 := Real.exp (μ2 - μ3) * a2 + ∑ r, Real.exp (s (key 2 r) - μ3) * v (key 2 r)
    let l4 := Real.exp (μ3 - μ4) * l3 + ∑ r, Real.exp (s (key 3 r) - μ4)
    let a4 := Real.exp (μ3 - μ4) * a3 + ∑ r, Real.exp (s (key 3 r) - μ4) * v (key 3 r)
    a4 / l4 = wmean s v := by
  intro l1 a1 l2 a2 l3 a3 l4 a4
  have hl1 : l1 = Real.exp (-μ1) * ∑ r, Real.exp (s (key 0 r)) := by
    show (0 : ℝ) * 0 + _ = _; rw [mul_zero, zero_add, tile_shift_one]
  have ha1 : a1 = Real.exp (-μ1) * ∑ r, Real.exp (s (key 0 r)) * v (key 0 r) := by
    show (0 : ℝ) * 0 + _ = _; rw [mul_zero, zero_add, tile_shift (fun r => s (key 0 r)) (fun r => v (key 0 r))]
  have hl2 : l2 = Real.exp (-μ2) * (∑ r, Real.exp (s (key 0 r)) + ∑ r, Real.exp (s (key 1 r))) := by
    show Real.exp (μ1 - μ2) * l1 + _ = _; rw [hl1, tile_shift_one, carry]
  have ha2 : a2 = Real.exp (-μ2) * (∑ r, Real.exp (s (key 0 r)) * v (key 0 r) + ∑ r, Real.exp (s (key 1 r)) * v (key 1 r)) := by
    show Real.exp (μ1 - μ2) * a1 + _ = _
    rw [ha1, tile_shift (fun r => s (key 1 r)) (fun r => v (key 1 r)), carry]
  have hl3 : l3 = Real.exp (-μ3) * (∑ r, Real.exp (s (key 0 r)) + ∑ r, Real.exp (s (key 1 r)) + ∑ r, Real.exp (s (key 2 r))) := by
    show Real.exp (μ2 - μ3) * l2 + _ = _; rw [hl2, tile_shift_one, carry]
  have ha3 : a3 = Real.exp (-μ3) * (∑ r, Real.exp (s (key 0 r)) * v (key 0 r) + ∑ r, Real.exp (s (key 1 r)) * v (key 1 r)
      + ∑ r, Real.exp (s (key 2 r)) * v (key 2 r)) := by
    show Real.exp (μ2 - μ3) * a2 + _ = _
    rw [ha2, tile_shift (fun r => s (key 2 r)) (fun r => v (key 2 r)), carry]
  have hl4 : l4 = Real.exp (-μ4) * (∑ r, Real.exp (s (key 0 r)) + ∑ r, Real.exp (s (key 1 r)) + ∑ r, Real.exp (s (key 2 r))
      + ∑ r, Real.exp (s (key 3 r))) := by
    show Real.exp (μ3 - μ4) * l3 + _ = _; rw [hl3, tile_shift_one, carry]
  have ha4 : a4 = Real.exp (-μ4) * (∑ r, Real.exp (s (key 0 r)) * v (key 0 r) + ∑ r, Real.exp (s (key 1 r)) * v (key 1 r)
      + ∑ r, Real.exp (s (key 2 r)) * v (key 2 r) + ∑ r, Real.exp (s (key 3 r)) * v (key 3 r)) := by
    show Real.exp (μ3 - μ4) * a3 + _ = _
    rw [ha3, tile_shift (fun r => s (key 3 r)) (fun r => v (key 3 r)), carry]
  rw [ha4, hl4, quot_shift]
  unfold wmean
  rw [sum_keys (fun k => Real.exp (s k) * v k), sum_keys (fun k => Real.exp (s k))]

/-- The last block's sum of weights is positive, so the final ℓ is. -/
theorem streamed_pos (s : Fin 4096 → ℝ) (μ4 x : ℝ) (hx : 0 ≤ x) :
    0 < x + ∑ r : Fin 1024, Real.exp (s (key 3 r) - μ4) := by
  have : 0 < ∑ r : Fin 1024, Real.exp (s (key 3 r) - μ4) :=
    Finset.sum_pos (fun r _ => Real.exp_pos _) ⟨⟨0, by norm_num⟩, Finset.mem_univ _⟩
  linarith

end Attn

end
-- ==== Proof.Consts.lean ====
/-
  The float words this proof meets, as the extended reals they denote: +∞, -∞, zero, sixteen and one sixteenth.
  They are evaluated here once, and every other module reads them from here.
-/
import Idealize.ShloMosaic.PureOps.Ideal

noncomputable section

namespace Cert.Consts

open Idealize.ShloMosaic

/-- The word of +∞. -/
theorem ofBits_top : Ideal.ofBits .f32 0x7F800000#32 = (⊤ : EReal) := by
  simp [Ideal.ofBits, Ideal.ieee]

/-- The word of -∞. -/
theorem ofBits_bot : Ideal.ofBits .f32 0xFF800000#32 = (⊥ : EReal) := by
  simp [Ideal.ofBits, Ideal.ieee]

/-- The zero word. -/
theorem ofBits_zero : Ideal.ofBits .f32 0x00000000#32 = (0 : EReal) := by
  simp [Ideal.ofBits, Ideal.ieee]

/-- The word of 16. -/
theorem ofBits_16 : Ideal.ofBits .f32 0x41800000#32 = ((16 : ℝ) : EReal) := by
  simp [Ideal.ofBits, Ideal.ieee, -EReal.coe_mul]; norm_num

/-- The word of 1/16. -/
theorem ofBits_sixteenth : Ideal.ofBits .f32 0x3D800000#32 = ((1 / 16 : ℝ) : EReal) := by
  simp [Ideal.ofBits, Ideal.ieee, -EReal.coe_mul]; norm_num

end Cert.Consts

end
-- ==== Proof.KernelReal.lean ====
/-
  The attention body at the exact values: the output tile's entries as real numbers.

  With real-valued query, key and value tiles (the remainder parts of queries and keys being zero, as they are once a
  change of format is the identity), each block's scores are the plain products ∑_e q[r, e] · k[j, e]; the running
  maximum is some real number after the first block; and the running sums are the real recurrences of the streamed
  evaluation.  So the output entry (r, e) is the exp-weighted mean over all 4096 keys of the values V[·, e] under the
  scores ∑_d q[r, d] · K[·, d].
-/
import proofs.«174132_j72181220376900_2_alg».proof.Proof.KernelTile
import proofs.«174132_j72181220376900_2_alg».proof.Proof.IdealTile
import proofs.«174132_j72181220376900_2_alg».proof.Proof.AttnSpec
import proofs.«174132_j72181220376900_2_alg».proof.Proof.Consts

set_option maxRecDepth 16384

noncomputable section

open scoped BigOperators
open Idealize.ShloMosaic Idealize.ShloMosaic.ValueIdx RealTile

namespace Cert.KernelIdeal.RealValue

open Cert.KernelIdeal Cert.KernelIdeal.Gen Cert.KernelIdeal.Tile

/-- The starting running maximum is -∞, -/
theorem bot_pay11 : BotC (k0_pay11 (F := Ideal)) := fun _ => Cert.Consts.ofBits_bot
/-- the starting sum of weights is zero, -/
theorem zero_pay12 : RealC (k0_pay12 (F := Ideal)) (fun _ => 0) := fun _ => Cert.Consts.ofBits_zero
/-- and so is the starting weighted sum. -/
theorem zero_pay13 : Real2 (k0_pay13 (F := Ideal)) (fun _ _ => 0) := fun _ _ => Cert.Consts.ofBits_zero

/-- A block's scores: with zero remainder parts, the one product of queries and keys. -/
theorem real_scores {qh ql : FVec Ideal S1024x256 .bf16} {kh kl : Vec Ideal S1024x256 .bf16}
    {q k : Fin 1024 → Fin 256 → ℝ} (hq : Real2 qh q) (hql : Real2 ql (fun _ _ => 0)) (hk : Real2 (φ := .bf16) kh k)
    (hkl : Real2 (φ := .bf16) kl (fun _ _ => 0)) :
    Real2 (scoresT qh ql kh kl) (fun p j => ∑ e, q p e * k j e) := by
  unfold scoresT
  refine (real_addf (real_addf (real_matmulNT _ none hq hk) (real_matmulNT _ none hq hkl))
    (real_matmulNT _ none hql hk)).congr fun p j => ?_
  simp

/-- One block after the first: the new maximum is a real number, and the sums follow the streamed recurrences. -/
theorem step {m l : FVec Ideal S1024x1 .f32} {acc : FVec Ideal S1024x256 .f32} {S : FVec Ideal S1024x1024 .f32}
    {vv : Vec Ideal S1024x256 .bf16} {μ lr : Fin 1024 → ℝ} {ar : Fin 1024 → Fin 256 → ℝ}
    {s : Fin 1024 → Fin 1024 → ℝ} {v : Fin 1024 → Fin 256 → ℝ}
    (hm : RealC m μ) (hl : RealC l lr) (ha : Real2 acc ar) (hS : Real2 S s) (hv : Real2 (φ := .bf16) vv v) :
    ∃ μ' : Fin 1024 → ℝ, RealC (mNext m S) μ'
      ∧ RealC (lNext (alphaT m (mNext m S)) l (pT S (mNext m S)))
          (fun p => Real.exp (μ p - μ' p) * lr p + ∑ j, Real.exp (s p j - μ' p))
      ∧ Real2 (accNext (alphaT m (mNext m S)) acc (pT S (mNext m S)) vv)
          (fun p e => Real.exp (μ p - μ' p) * ar p e + ∑ j, Real.exp (s p j - μ' p) * v j e) := by
  obtain ⟨ρ, hρ⟩ := real_rowMax (by norm_num) hS reduces_S1024x1024_S1024 (.inl rfl) rfl Cert.Consts.ofBits_bot
    shapeCasts_S1024_S1024x1
  have hm' : RealC (mNext m S) (fun p => max (μ p) (ρ p)) := realC_max hm hρ
  have hα := realC_exp_sub hm hm'
  have hp := real_exp_sub_col hS hm' broadcasts_S1024x1_S1024x1024
  have hsum := real_rowSum hp reduces_S1024x1024_S1024 (.inl rfl) rfl shapeCasts_S1024_S1024x1
  have hpv := real_matmulNN dot_S1024x1024_S1024x256_S1024x256_1_0_0_1_n_n_wf none (real_truncf bitsLt_bf16_f32 hp) hv
  exact ⟨_, hm', realC_mul_add hα hl hsum, real_col_mul_add hα ha hpv broadcasts_S1024x1_S1024x256⟩

/-- The first block: from -∞ the new maximum is the block's own, and the old sums enter with weight exp(-∞) = 0. -/
theorem step_first {S : FVec Ideal S1024x1024 .f32} {vv : Vec Ideal S1024x256 .bf16}
    {s : Fin 1024 → Fin 1024 → ℝ} {v : Fin 1024 → Fin 256 → ℝ} (hS : Real2 S s) (hv : Real2 (φ := .bf16) vv v) :
    ∃ μ' : Fin 1024 → ℝ, RealC (mNext k0_pay11 S) μ'
      ∧ RealC (lNext (alphaT k0_pay11 (mNext k0_pay11 S)) k0_pay12 (pT S (mNext k0_pay11 S)))
          (fun p => (0 : ℝ) * 0 + ∑ j, Real.exp (s p j - μ' p))
      ∧ Real2 (accNext (alphaT k0_pay11 (mNext k0_pay11 S)) k0_pay13 (pT S (mNext k0_pay11 S)) vv)
          (fun p e => (0 : ℝ) * 0 + ∑ j, Real.exp (s p j - μ' p) * v j e) := by
  obtain ⟨ρ, hρ⟩ := real_rowMax (by norm_num) hS reduces_S1024x1024_S1024 (.inl rfl) rfl Cert.Consts.ofBits_bot
    shapeCasts_S1024_S1024x1
  have hm' : RealC (mNext k0_pay11 S) ρ := realC_max_bot bot_pay11 hρ
  have hα := realC_exp_bot_sub bot_pay11 hm'
  have hp := real_exp_sub_col hS hm' broadcasts_S1024x1_S1024x1024
  have hsum := real_rowSum hp reduces_S1024x1024_S1024 (.inl rfl) rfl shapeCasts_S1024_S1024x1
  have hpv := real_matmulNN dot_S1024x1024_S1024x256_S1024x256_1_0_0_1_n_n_wf none (real_truncf bitsLt_bf16_f32 hp) hv
  exact ⟨_, hm', realC_mul_add hα zero_pay12 hsum, real_col_mul_add hα zero_pay13 hpv broadcasts_S1024x1_S1024x256⟩

/-- The four blocks: the output entry (r, e) is the exp-weighted mean over the 4096 keys. -/
theorem online_real {qh ql : FVec Ideal S1024x256 .bf16} {kh0 kl0 vv0 kh1 kl1 vv1 kh2 kl2 vv2 kh3 kl3 vv3 : Vec Ideal S1024x256 .bf16}
    {q : Fin 1024 → Fin 256 → ℝ} {K V : Fin 4096 → Fin 256 → ℝ}
    (hq : Real2 qh q) (hql : Real2 ql (fun _ _ => 0))
    (hk0 : Real2 (φ := .bf16) kh0 (fun j e => K (Attn.key 0 j) e)) (hl0 : Real2 (φ := .bf16) kl0 (fun _ _ => 0))
    (hv0 : Real2 (φ := .bf16) vv0 (fun j e => V (Attn.key 0 j) e))
    (hk1 : Real2 (φ := .bf16) kh1 (fun j e => K (Attn.key 1 j) e)) (hl1 : Real2 (φ := .bf16) kl1 (fun _ _ => 0))
    (hv1 : Real2 (φ := .bf16) vv1 (fun j e => V (Attn.key 1 j) e))
    (hk2 : Real2 (φ := .bf16) kh2 (fun j e => K (Attn.key 2 j) e)) (hl2 : Real2 (φ := .bf16) kl2 (fun _ _ => 0))
    (hv2 : Real2 (φ := .bf16) vv2 (fun j e => V (Attn.key 2 j) e))
    (hk3 : Real2 (φ := .bf16) kh3 (fun j e => K (Attn.key 3 j) e)) (hl3 : Real2 (φ := .bf16) kl3 (fun _ _ => 0))
    (hv3 : Real2 (φ := .bf16) vv3 (fun j e => V (Attn.key 3 j) e))
    (u : Fin 1) (r : Fin 1024) (e : Fin 256) :
    online qh ql kh0 kl0 vv0 kh1 kl1 vv1 kh2 kl2 vv2 kh3 kl3 vv3 (ix3 u r e)
      = ((Attn.wmean (fun kk => ∑ d, q r d * K kk d) (fun kk => V kk e) : ℝ) : EReal) := by
  obtain ⟨μ1, hm1, hL1, hA1⟩ := step_first (real_scores hq hql hk0 hl0) hv0
  obtain ⟨μ2, hm2, hL2, hA2⟩ := step hm1 hL1 hA1 (real_scores hq hql hk1 hl1) hv1
  obtain ⟨μ3, hm3, hL3, hA3⟩ := step hm2 hL2 hA2 (real_scores hq hql hk2 hl2) hv2
  obtain ⟨μ4, hm4, hL4, hA4⟩ := step hm3 hL3 hA3 (real_scores hq hql hk3 hl3) hv3
  have hpos : ∀ p, (fun p => Real.exp (μ3 p - μ4 p) * (Real.exp (μ2 p - μ3 p) * (Real.exp (μ1 p - μ2 p) *
      ((0 : ℝ) * 0 + ∑ j, Real.exp ((∑ e, q p e * K (Attn.key 0 j) e) - μ1 p)) + ∑ j, Real.exp ((∑ e, q p e * K (Attn.key 1 j) e) - μ2 p))
      + ∑ j, Real.exp ((∑ e, q p e * K (Attn.key 2 j) e) - μ3 p)) + ∑ j, Real.exp ((∑ e, q p e * K (Attn.key 3 j) e) - μ4 p)) p ≠ 0 :=
    fun p => (add_pos_of_nonneg_of_pos (by positivity)
      (Finset.sum_pos (fun _ _ => Real.exp_pos _) ⟨(0 : Fin 1024), Finset.mem_univ _⟩)).ne'
  show outOf _ _ (ix3 u r e) = _
  unfold outOf
  rw [real_div_col hA4 hL4 hpos broadcasts_S1024x1_S1024x256 shapeCasts_S1024x256_S1x1024x256 u r e]
  exact congrArg _ (Attn.streamed (fun kk => ∑ d, q r d * K kk d) (fun kk => V kk e) (μ1 r) (μ2 r) (μ3 r) (μ4 r))

end Cert.KernelIdeal.RealValue

end
-- ==== Proof.KernelProj.lean ====
/-
  The kernel's three projections and its tile loads, over the reals.

  Each projection is computed as three products of matrices — the leading part of the tokens against the leading part of
  the weights, the leading part against the remainder of the weights, the remainder of the tokens against the leading
  part — plus the bias row.  A change of format keeps the value of an extended real, so the remainder part x - x of a
  real-valued tile is the zero tile: two of the three products vanish and what is left is ∑_d x[n, d] · w[e, d] + b[e].
  The query projection is moreover scaled by 1/16.  The last part reads the row blocks the body loads: rows
  1024·c … 1024·c + 1023 of a kept tile, and the 1024 token rows of a grid point.
-/
import proofs.«174132_j72181220376900_2_alg».proof.Proof.KernelTile
import proofs.«174132_j72181220376900_2_alg».proof.Proof.IdealTile
import proofs.«174132_j72181220376900_2_alg».proof.Proof.AttnSpec
import proofs.«174132_j72181220376900_2_alg».proof.Proof.Consts
import proofs.«174132_j72181220376900_2_alg».proof.Proof.LibTileOps
import Idealize.ShloMosaic.Lib.ValueLayout

set_option maxRecDepth 16384

noncomputable section

open scoped BigOperators
open Idealize.ShloMosaic Idealize.ShloMosaic.ValueIdx RealTile

namespace Cert.KernelIdeal.Proj

open Cert.KernelIdeal Cert.KernelIdeal.Gen Cert.KernelIdeal.Tile

/-! ## The query projection -/

/-- The scaled query projection before its split into a leading part and a remainder. -/
theorem real_pay8 {xq : Vec Ideal S1x1024x256 .f32} {wq : Vec Ideal S256x256 .f32} {bq : Vec Ideal S1x256 .f32}
    {x : Fin 1024 → Fin 256 → ℝ} {w : Fin 256 → Fin 256 → ℝ} {b : Fin 256 → ℝ}
    (hx : ∀ r d, xq (ix3 (0 : Fin 1) r d) = ((x r d : ℝ) : EReal)) (hw : Real2 (φ := .f32) wq w)
    (hb : ∀ e, bq (ix2 (0 : Fin 1) e) = ((b e : ℝ) : EReal)) :
    Real2 (φ := .f32) (k0_pay8 xq wq bq) (fun r e => (∑ d, x r d * w e d + b e) * (1 / 16)) := by
  have h7 : Real2 (φ := .f32) (shapeCast S1024x256 xq shapeCasts_S1x1024x256_S1024x256) x := fun r d => by
    rw [shapeCast_1ab_ab_apply]; exact hx r d
  have h9 := real_truncf (ψ := .bf16) bitsLt_bf16_f32 h7
  have h12 := real_truncf (ψ := .bf16) bitsLt_bf16_f32 (real_sub_self h7)
  have h13 := real_truncf (ψ := .bf16) bitsLt_bf16_f32 hw
  have h16 := real_truncf (ψ := .bf16) bitsLt_bf16_f32 (real_sub_self hw)
  have h17 := real_matmulNT dot_S1024x256_S256x256_S1024x256_1_1_0_0_n_n_wf none h9 h13
  have h18 := real_matmulNT dot_S1024x256_S256x256_S1024x256_1_1_0_0_n_n_wf none h9 h16
  have h20 := real_matmulNT dot_S1024x256_S256x256_S1024x256_1_1_0_0_n_n_wf none h12 h13
  have h24 : Real2 (φ := .f32)
      (broadcastTo S1024x256 (shapeCast S1x256 bq shapeCasts_S1x256_S1x256) broadcasts_S1x256_S1024x256)
      (fun _ e => b e) := fun p e => by
    rw [TileOps.broadcastRow_apply, shapeCast_self]; exact hb e
  have h26 : Real2 (φ := .f32) (broadcast S1024x256 (Scalar.ofBits (F := Ideal) .f32 0x3D800000#32))
      (fun _ _ => 1 / 16) := fun p e => Cert.Consts.ofBits_sixteenth
  exact Real2.congr (real_mulf (real_addf (real_addf (real_addf h17 h18) h20) h24) h26) (fun p q => by simp)

/-- The query tile's leading part is the scaled projection; its remainder part is zero. -/
theorem real_q {xq : Vec Ideal S1x1024x256 .f32} {wq : Vec Ideal S256x256 .f32} {bq : Vec Ideal S1x256 .f32}
    {x : Fin 1024 → Fin 256 → ℝ} {w : Fin 256 → Fin 256 → ℝ} {b : Fin 256 → ℝ}
    (hx : ∀ r d, xq (ix3 (0 : Fin 1) r d) = ((x r d : ℝ) : EReal)) (hw : Real2 (φ := .f32) wq w)
    (hb : ∀ e, bq (ix2 (0 : Fin 1) e) = ((b e : ℝ) : EReal)) :
    Real2 (k0_pay9 xq wq bq) (fun r e => (∑ d, x r d * w e d + b e) * (1 / 16))
      ∧ Real2 (k0_pay10 xq wq bq) (fun _ _ => 0) :=
  ⟨real_truncf (ψ := .bf16) bitsLt_bf16_f32 (real_pay8 hx hw hb),
   real_truncf (ψ := .bf16) bitsLt_bf16_f32 (real_sub_self (real_pay8 hx hw hb))⟩

/-! ## The key and value projections -/

/-- The key projection before its split into a leading part and a remainder. -/
theorem real_pay3 {x0 : Vec Ideal S1x4096x256 .f32} {wk : Vec Ideal S256x256 .f32} {bk : Vec Ideal S1x256 .f32}
    {x : Fin 4096 → Fin 256 → ℝ} {w : Fin 256 → Fin 256 → ℝ} {b : Fin 256 → ℝ}
    (hx : ∀ n d, x0 (ix3 (0 : Fin 1) n d) = ((x n d : ℝ) : EReal)) (hw : Real2 (φ := .f32) wk w)
    (hb : ∀ e, bk (ix2 (0 : Fin 1) e) = ((b e : ℝ) : EReal)) :
    Real2 (φ := .f32) (k0_pay3 x0 wk bk) (fun n e => ∑ d, x n d * w e d + b e) := by
  have h2 : Real2 (φ := .f32) (k0_pay2 x0) x := fun r d => by
    show shapeCast S4096x256 x0 shapeCasts_S1x4096x256_S4096x256 (ix2 r d) = _
    rw [shapeCast_1ab_ab_apply]; exact hx r d
  have h143 := real_truncf (ψ := .bf16) bitsLt_bf16_f32 h2
  have h146 := real_truncf (ψ := .bf16) bitsLt_bf16_f32 (real_sub_self h2)
  have h147 := real_truncf (ψ := .bf16) bitsLt_bf16_f32 hw
  have h150 := real_truncf (ψ := .bf16) bitsLt_bf16_f32 (real_sub_self hw)
  have h151 := real_matmulNT dot_S4096x256_S256x256_S4096x256_1_1_0_0_n_n_wf none h143 h147
  have h152 := real_matmulNT dot_S4096x256_S256x256_S4096x256_1_1_0_0_n_n_wf none h143 h150
  have h154 := real_matmulNT dot_S4096x256_S256x256_S4096x256_1_1_0_0_n_n_wf none h146 h147
  have h158 : Real2 (φ := .f32)
      (broadcastTo S4096x256 (shapeCast S1x256 bk shapeCasts_S1x256_S1x256) broadcasts_S1x256_S4096x256)
      (fun _ e => b e) := fun p e => by
    rw [TileOps.broadcastRow_apply, shapeCast_self]; exact hb e
  exact Real2.congr (real_addf (real_addf (real_addf h151 h152) h154) h158) (fun p q => by simp)

/-- The kept key tile's leading part is the key projection; its remainder part is zero. -/
theorem real_k {x0 : Vec Ideal S1x4096x256 .f32} {wk : Vec Ideal S256x256 .f32} {bk : Vec Ideal S1x256 .f32}
    {x : Fin 4096 → Fin 256 → ℝ} {w : Fin 256 → Fin 256 → ℝ} {b : Fin 256 → ℝ}
    (hx : ∀ n d, x0 (ix3 (0 : Fin 1) n d) = ((x n d : ℝ) : EReal)) (hw : Real2 (φ := .f32) wk w)
    (hb : ∀ e, bk (ix2 (0 : Fin 1) e) = ((b e : ℝ) : EReal)) :
    Real2 (k0_pay4 x0 wk bk) (fun n e => ∑ d, x n d * w e d + b e)
      ∧ Real2 (k0_pay5 x0 wk bk) (fun _ _ => 0) := by
  have e4 : k0_pay4 x0 wk bk = truncf .bf16 (k0_pay3 x0 wk bk) bitsLt_bf16_f32 := shapeCast_self _ _
  have e5 : k0_pay5 x0 wk bk = truncf .bf16 (subf (k0_pay3 x0 wk bk) (k0_pay3 x0 wk bk)) bitsLt_bf16_f32 :=
    shapeCast_self _ _
  rw [e4, e5]
  exact ⟨real_truncf (ψ := .bf16) bitsLt_bf16_f32 (real_pay3 hx hw hb),
    real_truncf (ψ := .bf16) bitsLt_bf16_f32 (real_sub_self (real_pay3 hx hw hb))⟩

/-- The kept value tile is the value projection. -/
theorem real_v {x0 : Vec Ideal S1x4096x256 .f32} {wv : Vec Ideal S256x256 .f32} {bv : Vec Ideal S1x256 .f32}
    {x : Fin 4096 → Fin 256 → ℝ} {w : Fin 256 → Fin 256 → ℝ} {b : Fin 256 → ℝ}
    (hx : ∀ n d, x0 (ix3 (0 : Fin 1) n d) = ((x n d : ℝ) : EReal)) (hw : Real2 (φ := .f32) wv w)
    (hb : ∀ e, bv (ix2 (0 : Fin 1) e) = ((b e : ℝ) : EReal)) :
    Real2 (k0_pay7 (k0_pay6 x0 wv bv)) (fun n e => ∑ d, x n d * w e d + b e) := by
  have e7 : k0_pay7 (k0_pay6 x0 wv bv) = k0_pay6 x0 wv bv := shapeCast_self _ _
  rw [e7]
  have h2 : Real2 (φ := .f32) (k0_pay2 x0) x := fun r d => by
    show shapeCast S4096x256 x0 shapeCasts_S1x4096x256_S4096x256 (ix2 r d) = _
    rw [shapeCast_1ab_ab_apply]; exact hx r d
  have h170 := real_truncf (ψ := .bf16) bitsLt_bf16_f32 h2
  have h172 := real_truncf (ψ := .bf16) bitsLt_bf16_f32 hw
  have h173 := real_matmulNT dot_S4096x256_S256x256_S4096x256_1_1_0_0_n_n_wf none h170 h172
  have h176 : Real2 (φ := .f32)
      (broadcastTo S4096x256 (shapeCast S1x256 bv shapeCasts_S1x256_S1x256) broadcasts_S1x256_S4096x256)
      (fun _ e => b e) := fun p e => by
    rw [TileOps.broadcastRow_apply, shapeCast_self]; exact hb e
  exact real_truncf (ψ := .bf16) bitsLt_bf16_f32 (real_addf h173 h176)

/-! ## Row blocks of a kept tile -/

/-- Block 0 of a kept tile: rows 0 … 1023. -/
theorem real_chunk0 {T : Vec Ideal S4096x256 .bf16} {t : Fin 4096 → Fin 256 → ℝ} (hT : Real2 (φ := .bf16) T t) :
    Real2 (φ := .bf16) (chunk0 T) (fun j e => t (Attn.key 0 j) e) := fun j e => by
  rw [← hT (Attn.key 0 j) e]
  show T _ = T _
  refine congrArg T (funext fun a => Fin.ext ?_)
  match a with
  | ⟨0, _⟩ => show 0 + 1 * j.val = 0 * 1024 + j.val; omega
  | ⟨1, _⟩ => show 0 + 1 * e.val = e.val; omega

/-- Block 1: rows 1024 … 2047. -/
theorem real_chunk1 {T : Vec Ideal S4096x256 .bf16} {t : Fin 4096 → Fin 256 → ℝ} (hT : Real2 (φ := .bf16) T t) :
    Real2 (φ := .bf16) (chunk1 T) (fun j e => t (Attn.key 1 j) e) := fun j e => by
  rw [← hT (Attn.key 1 j) e]
  show T _ = T _
  refine congrArg T (funext fun a => Fin.ext ?_)
  match a with
  | ⟨0, _⟩ => show 1024 + 1 * j.val = 1 * 1024 + j.val; omega
  | ⟨1, _⟩ => show 0 + 1 * e.val = e.val; omega

/-- Block 2: rows 2048 … 3071. -/
theorem real_chunk2 {T : Vec Ideal S4096x256 .bf16} {t : Fin 4096 → Fin 256 → ℝ} (hT : Real2 (φ := .bf16) T t) :
    Real2 (φ := .bf16) (chunk2 T) (fun j e => t (Attn.key 2 j) e) := fun j e => by
  rw [← hT (Attn.key 2 j) e]
  show T _ = T _
  refine congrArg T (funext fun a => Fin.ext ?_)
  match a with
  | ⟨0, _⟩ => show 2048 + 1 * j.val = 2 * 1024 + j.val; omega
  | ⟨1, _⟩ => show 0 + 1 * e.val = e.val; omega

/-- Block 3: rows 3072 … 4095. -/
theorem real_chunk3 {T : Vec Ideal S4096x256 .bf16} {t : Fin 4096 → Fin 256 → ℝ} (hT : Real2 (φ := .bf16) T t) :
    Real2 (φ := .bf16) (chunk3 T) (fun j e => t (Attn.key 3 j) e) := fun j e => by
  rw [← hT (Attn.key 3 j) e]
  show T _ = T _
  refine congrArg T (funext fun a => Fin.ext ?_)
  match a with
  | ⟨0, _⟩ => show 3072 + 1 * j.val = 3 * 1024 + j.val; omega
  | ⟨1, _⟩ => show 0 + 1 * e.val = e.val; omega

/-! ## The token rows of a grid point -/

/-- The query tile's row r is token row o + r, where o is the grid point's row offset. -/
theorem rowsQ_apply (i : grid0.Coords) (x0 : Vec Ideal S1x4096x256 .f32) (o : Nat) (ho : o + 1024 ≤ 4096)
    (hoff : k0_off1 i = ![0, o, 0]) (u : Fin 1) (r : Fin 1024) (d : Fin 256) :
    rowsQ i x0 (ix3 u r d) = x0 (ix3 (0 : Fin 1) (⟨o + r.val, by have := r.isLt; omega⟩ : Fin 4096) d) := by
  show x0 _ = x0 _
  refine congrArg x0 (funext fun a => Fin.ext ?_)
  have hu : u.val = 0 := by have := u.isLt; omega
  match a with
  | ⟨0, h⟩ =>
    have h0 : k0_off1 i ⟨0, h⟩ = 0 := by rw [hoff]; rfl
    show k0_off1 i ⟨0, h⟩ + 1 * u.val = 0
    omega
  | ⟨1, h⟩ =>
    have h1 : k0_off1 i ⟨1, h⟩ = o := by rw [hoff]; rfl
    show k0_off1 i ⟨1, h⟩ + 1 * r.val = o + r.val
    omega
  | ⟨2, h⟩ =>
    have h2 : k0_off1 i ⟨2, h⟩ = 0 := by rw [hoff]; rfl
    show k0_off1 i ⟨2, h⟩ + 1 * d.val = d.val
    omega

end Cert.KernelIdeal.Proj

end
-- ==== Proof.KernelOut.lean ====
/-
  The output tile of one grid point as the attention of the point's query rows.

  The query tile is the projection of the point's 1024 token rows scaled by 1/16, the kept tiles are the key and value
  projections of the batch entry's whole slab; so the four-block evaluation ends at the exp-weighted mean of the
  values under ∑_d (Q[r, d] / 16) · K[j, d], and a factor 1/16 inside every term of a finite sum of real numbers is the
  sum divided by 16: the scaled score.
-/
import proofs.«174132_j72181220376900_2_alg».proof.Proof.KernelReal
import proofs.«174132_j72181220376900_2_alg».proof.Proof.KernelProj

set_option maxRecDepth 16384

noncomputable section

open scoped BigOperators
open Idealize.ShloMosaic Idealize.ShloMosaic.ValueIdx RealTile

namespace Cert.KernelIdeal.RealValue

open Cert.KernelIdeal Cert.KernelIdeal.Gen Cert.KernelIdeal.Tile

/-- Scaling the queries by 1/16 before the products is dividing the product sum by 16. -/
theorem scaled_score (q k : Fin 256 → ℝ) : ∑ d, (q d * (1 / 16)) * k d = (∑ d, q d * k d) / 16 := by
  rw [Finset.sum_div]; exact Finset.sum_congr rfl fun d _ => by ring

theorem outFull_real (i : grid0.Coords) (o : Nat) (ho : o + 1024 ≤ 4096) (hoff : k0_off1 i = ![0, o, 0])
    {x0 : Vec Ideal S1x4096x256 .f32} {wq wk wv : Vec Ideal S256x256 .f32} {bq bk bv : Vec Ideal S1x256 .f32}
    {x : Fin 4096 → Fin 256 → ℝ} {wqr wkr wvr : Fin 256 → Fin 256 → ℝ} {bqr bkr bvr : Fin 256 → ℝ}
    (hx : ∀ n d, x0 (ix3 (0 : Fin 1) n d) = ((x n d : ℝ) : EReal))
    (hwq : Real2 (φ := .f32) wq wqr) (hbq : ∀ e, bq (ix2 (0 : Fin 1) e) = ((bqr e : ℝ) : EReal))
    (hwk : Real2 (φ := .f32) wk wkr) (hbk : ∀ e, bk (ix2 (0 : Fin 1) e) = ((bkr e : ℝ) : EReal))
    (hwv : Real2 (φ := .f32) wv wvr) (hbv : ∀ e, bv (ix2 (0 : Fin 1) e) = ((bvr e : ℝ) : EReal))
    (u : Fin 1) (r : Fin 1024) (e : Fin 256) :
    outFull (rowsQ i x0) wq bq (k0_pay4 x0 wk bk) (k0_pay5 x0 wk bk) (k0_pay7 (k0_pay6 x0 wv bv)) (ix3 u r e)
      = ((Attn.attn x wqr bqr wkr bkr wvr bvr ⟨o + r.val, by have := r.isLt; omega⟩ e : ℝ) : EReal) := by
  have hxq : ∀ (r : Fin 1024) (d : Fin 256), rowsQ i x0 (ix3 (0 : Fin 1) r d)
      = (((fun (r : Fin 1024) (d : Fin 256) => x ⟨o + r.val, by have := r.isLt; omega⟩ d) r d : ℝ) : EReal) := fun r d => by
    rw [Proj.rowsQ_apply i x0 o ho hoff, hx]
  obtain ⟨hq, hql⟩ := Proj.real_q hxq hwq hbq
  obtain ⟨hk, hkl⟩ := Proj.real_k hx hwk hbk
  have hv := Proj.real_v hx hwv hbv
  unfold outFull
  rw [outTile_eq_online]
  rw [online_real (K := fun n e => ∑ d, x n d * wkr e d + bkr e) (V := fun n e => ∑ d, x n d * wvr e d + bvr e) hq hql
    (Proj.real_chunk0 hk) (Proj.real_chunk0 hkl) (Proj.real_chunk0 hv)
    (Proj.real_chunk1 hk) (Proj.real_chunk1 hkl) (Proj.real_chunk1 hv)
    (Proj.real_chunk2 hk) (Proj.real_chunk2 hkl) (Proj.real_chunk2 hv)
    (Proj.real_chunk3 hk) (Proj.real_chunk3 hkl) (Proj.real_chunk3 hv) u r e]
  congr 1
  unfold Attn.attn Attn.score Attn.proj
  congr 1
  funext kk
  exact scaled_score _ _

end Cert.KernelIdeal.RealValue

end
-- ==== Proof.LibReshape.lean ====
/-
  Merging two axes of an array into one and splitting them again, read at an index.

  An array over [8, 16, 256, 256] recast to [8, 4096, 256] keeps its entries in row-major order, so entry (b, n, d) of
  the result is entry (b, n / 256, n % 256, d) of the operand; recast the other way, entry (b, s, n, e) of the result
  is entry (b, s · 256 + n, e) of the operand.  The two index maps n ↦ (n / 256, n % 256) and (s, n) ↦ s · 256 + n
  are inverse to each other, by division with remainder.
-/
import Idealize.ShloMosaic.Lib.ValueIdx
import Idealize.ShloMosaic.Lib.Pipeline.Value
import proofs.«174132_j72181220376900_2_alg».proof.Proof.AttnSpec

open Idealize.ShloMosaic Idealize.ShloMosaic.ValueIdx

namespace Cert.Reshape

/-- The axes (16, 256) merged into one of 4096: entry (b, n, d) is the operand's entry (b, n / 256, n % 256, d). -/
theorem merge_apply {α : Type} (X : (⟨4, ![8, 16, 256, 256]⟩ : Shape).Idx → α)
    (h : (⟨4, ![8, 16, 256, 256]⟩ : Shape).ShapeCasts ⟨3, ![8, 4096, 256]⟩) (b : Fin 8) (n : Fin 4096) (d : Fin 256) :
    shapeCast (⟨3, ![8, 4096, 256]⟩ : Shape) X h (ix3 b n d) = X (ix4 b (Attn.hi n) (Attn.lo n) d) := by
  refine shapeCast_apply X h _ _ ?_
  rw [Shape.rowMajor_val_four, Shape.rowMajor_val_three]
  have hn := Nat.div_add_mod n.val 256
  show ((b.val * 16 + n.val / 256) * 256 + n.val % 256) * 256 + d.val = (b.val * 4096 + n.val) * 256 + d.val
  omega

/-- The axis of 4096 split into (16, 256): entry (b, s, n, e) is the operand's entry (b, s · 256 + n, e). -/
theorem split_apply {α : Type} (Y : (⟨3, ![8, 4096, 256]⟩ : Shape).Idx → α)
    (h : (⟨3, ![8, 4096, 256]⟩ : Shape).ShapeCasts ⟨4, ![8, 16, 256, 256]⟩) (b : Fin 8) (s : Fin 16) (n : Fin 256)
    (e : Fin 256) :
    shapeCast (⟨4, ![8, 16, 256, 256]⟩ : Shape) Y h (ix4 b s n e) = Y (ix3 b (Attn.flat s n) e) := by
  refine shapeCast_apply Y h _ _ ?_
  rw [Shape.rowMajor_val_three, Shape.rowMajor_val_four]
  show (b.val * 4096 + (s.val * 256 + n.val)) * 256 + e.val = ((b.val * 16 + s.val) * 256 + n.val) * 256 + e.val
  omega

/-- Splitting row s · 256 + n gives back (s, n). -/
theorem hi_lo_flat (s : Fin 16) (n : Fin 256) : Attn.hi (Attn.flat s n) = s ∧ Attn.lo (Attn.flat s n) = n := by
  have hn := n.isLt
  constructor
  · apply Fin.ext
    show (s.val * 256 + n.val) / 256 = s.val
    omega
  · apply Fin.ext
    show (s.val * 256 + n.val) % 256 = n.val
    omega

/-- Merging (q / 256, q % 256) gives back q. -/
theorem flat_hi_lo (q : Fin 4096) : Attn.flat (Attn.hi q) (Attn.lo q) = q := by
  apply Fin.ext
  show q.val / 256 * 256 + q.val % 256 = q.val
  have := Nat.div_add_mod q.val 256
  omega

end Cert.Reshape
-- ==== Proof.LibRowForm.lean ====
/-
  A vector recast as a one-row matrix, read at an index.
-/
import Idealize.ShloMosaic.Lib.ValueIdx
import Idealize.ShloMosaic.Lib.Pipeline.Value

namespace Cert.RowForm

open Idealize.ShloMosaic

/-- A vector of length `n` recast as a `1 × n` matrix, read at row `0` and column `j`, is the vector at `j`. -/
theorem row_of_reshape {α : Type} {n : Nat} (v : (⟨1, ![n]⟩ : Shape).Idx → α)
    (h : (⟨1, ![n]⟩ : Shape).ShapeCasts ⟨2, ![1, n]⟩) (j : Fin n) :
    shapeCast (⟨2, ![1, n]⟩ : Shape) v h (ValueIdx.ix2 (0 : Fin 1) j) = v (ValueIdx.ix1 j) := by
  rw [shapeCast_addUnit_apply ![n] v h]
  congr 1
  funext a
  match a with
  | ⟨0, _⟩ => rfl

end Cert.RowForm
-- ==== Proof.KernelArray.lean ====
/-
  The kernel's result array.

  With every argument entry a real number, the output tile of grid point t holds, at row r and feature e, the attention
  of batch entry t / 4 at query row 1024·(t % 4) + r — the same function of the arguments for every point.  Point t
  writes its tile back to rows 1024·(t % 4) … of slab t / 4 of the [8, 4096, 256] result, and the 32 tiles fill it; so the
  array after the region is that attention function everywhere, and the final recast to [8, 16, 256, 256] reads row
  s·256 + n of it at (s, n).
-/
import proofs.«174132_j72181220376900_2_alg».proof.Proof.KernelPoints
import proofs.«174132_j72181220376900_2_alg».proof.Proof.KernelOut
import proofs.«174132_j72181220376900_2_alg».proof.Proof.LibReshape
import proofs.«174132_j72181220376900_2_alg».proof.Proof.LibRowForm
import Idealize.ShloMosaic.Lib.Pipeline.Value

set_option maxRecDepth 16384

noncomputable section

open scoped BigOperators
open Idealize.ShloMosaic Idealize.ShloMosaic.TcCoe Idealize.SL.Sem Idealize.ShloMosaic.ValueIdx RealTile
open Idealize.ShloMosaic.Pipeline (Dat)

namespace Cert.KernelIdeal.Arr

open Cert.KernelIdeal Cert.KernelIdeal.Gen Cert.KernelIdeal.Tile Cert.KernelIdeal.Points Cert.KernelIdeal.RealValue

variable (m : (ℓ : Loc nD τ sig) → Buf (Elt Ideal) ℓ) (ρ : Dev nD → PrngReg)

/-- The seven argument arrays of core c. -/
abbrev aX (c : Dev nD) : S8x16x256x256.Idx → EReal := m ((c : Thread nD τ).loc main_arg0)
abbrev aWq (c : Dev nD) : S256x256.Idx → EReal := m ((c : Thread nD τ).loc main_arg1)
abbrev aBq (c : Dev nD) : S256.Idx → EReal := m ((c : Thread nD τ).loc main_arg2)
abbrev aWk (c : Dev nD) : S256x256.Idx → EReal := m ((c : Thread nD τ).loc main_arg3)
abbrev aBk (c : Dev nD) : S256.Idx → EReal := m ((c : Thread nD τ).loc main_arg4)
abbrev aWv (c : Dev nD) : S256x256.Idx → EReal := m ((c : Thread nD τ).loc main_arg5)
abbrev aBv (c : Dev nD) : S256.Idx → EReal := m ((c : Thread nD τ).loc main_arg6)

/-- Every entry of the seven arguments is a real number. -/
structure RealArgs (c : Dev nD) : Prop where
  hX : ∀ i, aX m c i = (((aX m c i).toReal : ℝ) : EReal)
  hWq : ∀ i, aWq m c i = (((aWq m c i).toReal : ℝ) : EReal)
  hBq : ∀ i, aBq m c i = (((aBq m c i).toReal : ℝ) : EReal)
  hWk : ∀ i, aWk m c i = (((aWk m c i).toReal : ℝ) : EReal)
  hBk : ∀ i, aBk m c i = (((aBk m c i).toReal : ℝ) : EReal)
  hWv : ∀ i, aWv m c i = (((aWv m c i).toReal : ℝ) : EReal)
  hBv : ∀ i, aBv m c i = (((aBv m c i).toReal : ℝ) : EReal)

/-- The attention function over [8, 4096, 256], of core c's arguments. -/
def G3arr (c : Dev nD) : S8x4096x256.Idx → EReal :=
  fun i => Attn.G3 (aX m c) (aWq m c) (aBq m c) (aWk m c) (aBk m c) (aWv m c) (aBv m c) (i 0) (i 1) (i 2)

/-- The token slab of a batch entry, entry by entry. -/
theorem XB_real (c : Dev nD) (h : RealArgs m c) (b : Fin 8) (n : Fin 4096) (d : Fin 256) :
    XB m c b (ix3 (0 : Fin 1) n d) = ((Attn.tokens (aX m c) b n d : ℝ) : EReal) := by
  show V m c main_v0 (ix3 b n d) = _
  rw [V_v0, Cert.Reshape.merge_apply]
  exact h.hX _

theorem bias_real (B : S256.Idx → EReal) (hB : ∀ i, B i = (((B i).toReal : ℝ) : EReal))
    (hc : S256.ShapeCasts S1x256) (e : Fin 256) :
    shapeCast S1x256 B hc (ix2 (0 : Fin 1) e) = ((Attn.vec B e : ℝ) : EReal) := by
  rw [Cert.RowForm.row_of_reshape]; exact hB _

/-- The output tile of point t is the attention of its batch entry at its query rows. -/
theorem outAt_real (c : Dev nD) (h : RealArgs m c) (t : Fin cfg0.N) (u : Fin 1) (r : Fin 1024) (e : Fin 256) :
    outAt m c t (ix3 u r e)
      = Attn.G3 (aX m c) (aWq m c) (aBq m c) (aWk m c) (aBk m c) (aWv m c) (aBv m c) (bat t)
          ⟨(t.val % 4) * 1024 + r.val, by have := r.isLt; omega⟩ e := by
  obtain ⟨-, -, -, -, -, -, -, -, -, -, -, -, -, -, -, -, -, -, eoff⟩ := idx_facts t
  unfold outAt KHb KLb VVb Attn.G3
  refine outFull_real (grid0.coords t) ((t.val % 4) * 1024) (by omega) eoff (XB_real m c h (bat t))
    (fun a b => by rw [V_main_arg1]; exact h.hWq _) (fun e => by rw [V_v1]; exact bias_real _ h.hBq _ e)
    (fun a b => by rw [V_main_arg3]; exact h.hWk _) (fun e => by rw [V_v2]; exact bias_real _ h.hBk _ e)
    (fun a b => by rw [V_main_arg5]; exact h.hWv _) (fun e => by rw [V_v3]; exact bias_real _ h.hBv _ e) u r e

/-- Where point t's block sits in the result: slab t / 4, rows 1024·(t % 4) …. -/
theorem emb7 (t : Fin cfg0.N) (u : Fin 1) (r : Fin 1024) (e : Fin 256) :
    ((cfg0.win 7).blk t).view.emb (ix3 u r e)
      = ix3 (bat t) (⟨(t.val % 4) * 1024 + r.val, by have := r.isLt; omega⟩ : Fin 4096) e := by
  obtain ⟨-, -, -, -, -, -, -, -, -, -, -, -, -, -, -, e70, e71, e72, -⟩ := idx_facts t
  funext a; apply Fin.ext
  match a with
  | ⟨0, _⟩ => show win0_7.index t (0 : Fin 3) * 1 + 1 * u.val = t.val / 4; have := u.isLt; omega
  | ⟨1, _⟩ => show win0_7.index t (1 : Fin 3) * 1024 + 1 * r.val = (t.val % 4) * 1024 + r.val; omega
  | ⟨2, _⟩ => show win0_7.index t (2 : Fin 3) * 256 + 1 * e.val = e.val; omega

/-- What point t writes back is block t of the attention function. -/
theorem flushed_eq (c : Dev nD) (h : RealArgs m c) (t : Fin cfg0.N) :
    (dats m 0 c).flushed 7 t = ((cfg0.win 7).blk t).view.read (Elt Ideal) (G3arr m c) := by
  show (cfg0.win 7).cut (grid0.coords t) ((dats m 0 c).after 7 t) = _
  rw [after0_7, outsAt_eq m c t.val t rfl]
  funext j
  obtain ⟨u, r, e, rfl⟩ : ∃ (u : Fin 1) (r : Fin 1024) (e : Fin 256), j = ix3 u r e := ⟨j 0, j 1, j 2, eq_ix3 j⟩
  show outAt m c t (ix3 u r e) = G3arr m c (((cfg0.win 7).blk t).view.emb (ix3 u r e))
  rw [outAt_real m c h, emb7]
  rfl

/-- An index of the result is in point t's block iff each coordinate is in the block's range on its axis. -/
theorem mem_blk7 (t : Fin cfg0.N) (i : S8x4096x256.Idx) :
    i ∈ ((cfg0.win 7).blk t).view.set ↔ ∀ a : Fin 3, win0_7.index t a * S1x1024x256.size a ≤ (i a).val
      ∧ (i a).val < win0_7.index t a * S1x1024x256.size a + S1x1024x256.size a := by
  show i ∈ ((View.whole main_v4).slice (win0_7.rect t)).set ↔ _
  rw [View.set_slice_whole, Rect.mem_set_unit]
  exact Iff.rfl

/-- Every index of the result is in the block of the point of its slab and row tile. -/
theorem covered (i : S8x4096x256.Idx) :
    ∃ t : Fin cfg0.N, (cfg0.win 7).flush t = true ∧ i ∈ ((cfg0.win 7).blk t).view.set := by
  have hN : cfg0.N = 32 := N_0
  have h0 : (i 0).val < 8 := (i 0).isLt
  have h1 : (i 1).val < 4096 := (i 1).isLt
  have h2 : (i 2).val < 256 := (i 2).isLt
  have ht : (i 0).val * 4 + (i 1).val / 1024 < cfg0.N := by omega
  obtain ⟨-, -, -, -, -, -, -, -, -, -, -, -, -, -, -, e70, e71, e72, -⟩ := idx_facts ⟨(i 0).val * 4 + (i 1).val / 1024, ht⟩
  have e70' : win0_7.index ⟨(i 0).val * 4 + (i 1).val / 1024, ht⟩ (0 : Fin 3) = ((i 0).val * 4 + (i 1).val / 1024) / 4 := e70
  have e71' : win0_7.index ⟨(i 0).val * 4 + (i 1).val / 1024, ht⟩ (1 : Fin 3) = ((i 0).val * 4 + (i 1).val / 1024) % 4 := e71
  refine ⟨⟨(i 0).val * 4 + (i 1).val / 1024, ht⟩, flush0_7 _, ?_⟩
  rw [mem_blk7]
  intro a
  match a with
  | ⟨0, _⟩ =>
    show win0_7.index _ (0 : Fin 3) * 1 ≤ (i 0).val ∧ (i 0).val < win0_7.index _ (0 : Fin 3) * 1 + 1
    rw [e70']; omega
  | ⟨1, _⟩ =>
    show win0_7.index _ (1 : Fin 3) * 1024 ≤ (i 1).val ∧ (i 1).val < win0_7.index _ (1 : Fin 3) * 1024 + 1024
    rw [e71']; omega
  | ⟨2, _⟩ =>
    show win0_7.index _ (2 : Fin 3) * 256 ≤ (i 2).val ∧ (i 2).val < win0_7.index _ (2 : Fin 3) * 256 + 256
    rw [e72]; omega

/-- The [8, 4096, 256] result after the region is the attention function. -/
theorem final7 (c : Dev nD) (h : RealArgs m c) : (dats m 0 c).arrAt 7 cfg0.N = G3arr m c :=
  (dats m 0 c).arrAt_eq_of_cover 7 (G3arr m c) (fun t _ => flushed_eq m c h t) (covered)

/-- The host's last line recasts it to [8, 16, 256, 256]. -/
theorem tail_v5 (c : Dev nD) : Pipeline.afterTail₀ cfgs (dats m) 0 (V0 m) [hostOps1] c main_v5
    = shapeCast S8x16x256x256 ((dats m 0 c).arrAt 7 cfg0.N) shapeCasts_S8x4096x256_S8x16x256x256 := by
  unfold Pipeline.afterTail₀
  show StableHlo.after hostOps1 _ (Proc.devRef .tc main_v5) = _
  after_results
  exact congrArg (fun z => shapeCast S8x16x256x256 z shapeCasts_S8x4096x256_S8x16x256x256)
    (Pipeline.withArrays_arr spec0 launch0.win.arr_inj c _ _ 7)

/-- The recast attention function is the specification's result. -/
theorem result_eq (c : Dev nD) :
    shapeCast S8x16x256x256 (G3arr m c) shapeCasts_S8x4096x256_S8x16x256x256
      = Attn.G (aX m c) (aWq m c) (aBq m c) (aWk m c) (aBk m c) (aWv m c) (aBv m c) := by
  funext i
  obtain ⟨b, s, n, e, rfl⟩ : ∃ (b : Fin 8) (s : Fin 16) (n : Fin 256) (e : Fin 256), i = ix4 b s n e :=
    ⟨i 0, i 1, i 2, i 3, eq_ix4 i⟩
  rw [Cert.Reshape.split_apply]
  rfl

/-- The run, read: under real-valued arguments the result array ends at the specification's result and the arguments
    end unchanged. -/
theorem run (hr : ∀ c, RealArgs m c) :
    θ_run defs (onTc (τ := τ) (main (F := Ideal))) ⟨m, fun _ => 0, ρ⟩ fun r => ∀ c : Dev nD,
      r.2.mem ((c.tc : Thread nD τ).loc main_v5)
        = Attn.G (aX m c) (aWq m c) (aBq m c) (aWk m c) (aBk m c) (aWv m c) (aBv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
      ⟨((h c).2 main_v5 (Pipeline.mem_restRefs_of main_v5 (by decide) (by decide))).trans
        ((tail_v5 m c).trans ((congrArg (fun z => shapeCast S8x16x256x256 z shapeCasts_S8x4096x256_S8x16x256x256)
          (final7 m c (hr c))).trans (result_eq m c))),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c),
       ((h c).1 3).trans (((dats m 0 c).arrAt_in 3 rfl _).trans ((A_eq m c 3).trans (V_main_arg3 m c))),
       ((h c).2 main_arg4 (Pipeline.mem_restRefs_of main_arg4 (by decide) (by decide))).trans (W_main_arg4 m (dats m) c),
       ((h c).1 5).trans (((dats m 0 c).arrAt_in 5 rfl _).trans ((A_eq m c 5).trans (V_main_arg5 m c))),
       ((h c).2 main_arg6 (Pipeline.mem_restRefs_of main_arg6 (by decide) (by decide))).trans (W_main_arg6 m (dats m) c)⟩)
    (run_main m ρ)

end Cert.KernelIdeal.Arr

end
-- ==== Proof.RefValue.lean ====
/-
  The reference program's value is scaled dot-product attention over the reals.

  Every argument entry is the coercion of a real number.  Reading the program one operation at a time, each stage is
  then again the coercion of a real number, computed by the same formula over ℝ: the three projections
  ∑_d x[n, d] · w[e, d] + b[e], the scores (∑_e Q[i, e] · K[j, e]) / 16, the row maximum M (some real number, as the
  greatest of 4096 reals), the weights exp(s_j - M) / ∑_j' exp(s_j' - M), and the weighted sum of the values.  The last
  is the exp-weighted mean of the values whatever the real number M is.  The two reshapes read row s · 256 + n of the
  flattened token axis as (s, n) and back.
-/
import Mathlib
import Idealize.ShloMosaic.Lib.ValueIdx
import Idealize.ShloMosaic.PureOps.Reduce
import Idealize.ShloMosaic.PureOps.Ideal.Laws
import proofs.«174132_j72181220376900_2_alg».proof.Proof.Gen.ReferenceIdeal.Read
import proofs.«174132_j72181220376900_2_alg».proof.Proof.AttnSpec
import proofs.«174132_j72181220376900_2_alg».proof.Proof.LibERealSum
import proofs.«174132_j72181220376900_2_alg».proof.Proof.Consts

noncomputable section

open scoped BigOperators
open Idealize.ShloMosaic Idealize.ShloMosaic.ValueIdx

namespace Cert.ReferenceIdeal.RefValue

/-! ## Sums and quotients of coercions -/

/-- A dot product of coercions plus a coercion is the coercion of the real dot product plus the real. -/
theorem dot_add_coe (x w : Fin 256 → ℝ) (β : ℝ) (g h : Fin 256 → EReal) (c : EReal)
    (hg : ∀ k, g k = ((x k : ℝ) : EReal)) (hh : ∀ k, h k = ((w k : ℝ) : EReal)) (hc : c = ((β : ℝ) : EReal)) :
    ∑ k, g k * h k + c = ((∑ k, x k * w k + β : ℝ) : EReal) := by
  rw [ERealSum.sum_mul_eq_coe Finset.univ g h x w (fun k _ => hg k) (fun k _ => hh k), hc, ← EReal.coe_add]

/-- The quotient of two coercions with a nonzero divisor is the coercion of the real quotient. -/
theorem div_coe_coe (x y : ℝ) (hy : y ≠ 0) : Ideal.div ((x : ℝ) : EReal) ((y : ℝ) : EReal) = ((x / y : ℝ) : EReal) := by
  rw [Ideal.div_coe hy, ← EReal.coe_mul]; congr 1; ring

/-! ## Index identities -/

theorem idx_v0 (b : Fin 8) (m : Fin 4096) (d : Fin 256) :
    Cert.ReferenceIdeal.Read.idx_main_v0 (ix3 b m d) = ix4 b (Attn.hi m) (Attn.lo m) d := by
  have hb := b.isLt; have hm := m.isLt; have hd := d.isLt
  funext a
  match a with
  | ⟨0, _⟩ => exact Fin.ext (by show ((b.val * 4096 + m.val) * 256 + d.val) / 1048576 = b.val; omega)
  | ⟨1, _⟩ => exact Fin.ext (by show ((b.val * 4096 + m.val) * 256 + d.val) / 65536 % 16 = m.val / 256; omega)
  | ⟨2, _⟩ => exact Fin.ext (by show ((b.val * 4096 + m.val) * 256 + d.val) / 256 % 256 = m.val % 256; omega)
  | ⟨3, _⟩ => exact Fin.ext (by show ((b.val * 4096 + m.val) * 256 + d.val) % 256 = d.val; omega)

theorem idx_v28 (b : Fin 8) (s : Fin 16) (n : Fin 256) (e : Fin 256) :
    Cert.ReferenceIdeal.Read.idx_main_v28 (ix4 b s n e) = ix3 b (Attn.flat s n) e := by
  have hb := b.isLt; have hs := s.isLt; have hn := n.isLt; have he := e.isLt
  funext a
  match a with
  | ⟨0, _⟩ => exact Fin.ext (by show (((b.val * 16 + s.val) * 256 + n.val) * 256 + e.val) / 1048576 = b.val; omega)
  | ⟨1, _⟩ => exact Fin.ext (by show (((b.val * 16 + s.val) * 256 + n.val) * 256 + e.val) / 256 % 4096 = s.val * 256 + n.val; omega)
  | ⟨2, _⟩ => exact Fin.ext (by show (((b.val * 16 + s.val) * 256 + n.val) * 256 + e.val) % 256 = e.val; omega)

/-- A projection's left operand index: (b, m, ·) at k. -/
theorem lidx_proj (b : Fin 8) (m : Fin 4096) (e k : Fin 256) :
    Cert.ReferenceIdeal.Read.lidx_main_v1 (ix3 b m e) k = ix3 b m k := by
  funext a; match a with | ⟨0, _⟩ => rfl | ⟨1, _⟩ => rfl | ⟨2, _⟩ => rfl

/-- A projection's right operand index: (e, k). -/
theorem ridx_proj (b : Fin 8) (m : Fin 4096) (e k : Fin 256) :
    Cert.ReferenceIdeal.Read.ridx_main_v1 (ix3 b m e) k = ix2 e k := by
  funext a; match a with | ⟨0, _⟩ => rfl | ⟨1, _⟩ => rfl

/-- The bias is read at e. -/
theorem idx_bias (b : Fin 8) (m : Fin 4096) (e : Fin 256) :
    Cert.ReferenceIdeal.Read.idx_main_v2 (Cert.ReferenceIdeal.Read.idx_main_v3 (ix3 b m e)) = ix1 e := by
  funext a; match a with | ⟨0, _⟩ => rfl

section Stages

variable (X : Cert.ReferenceIdeal.S8x16x256x256.Idx → EReal)
  (Wq : Cert.ReferenceIdeal.S256x256.Idx → EReal) (Bq : Cert.ReferenceIdeal.S256.Idx → EReal)
  (Wk : Cert.ReferenceIdeal.S256x256.Idx → EReal) (Bk : Cert.ReferenceIdeal.S256.Idx → EReal)
  (Wv : Cert.ReferenceIdeal.S256x256.Idx → EReal) (Bv : Cert.ReferenceIdeal.S256.Idx → EReal)
  (hX : ∀ i, X i = (((X i).toReal : ℝ) : EReal))
  (hWq : ∀ i, Wq i = (((Wq i).toReal : ℝ) : EReal)) (hBq : ∀ i, Bq i = (((Bq i).toReal : ℝ) : EReal))
  (hWk : ∀ i, Wk i = (((Wk i).toReal : ℝ) : EReal)) (hBk : ∀ i, Bk i = (((Bk i).toReal : ℝ) : EReal))
  (hWv : ∀ i, Wv i = (((Wv i).toReal : ℝ) : EReal)) (hBv : ∀ i, Bv i = (((Bv i).toReal : ℝ) : EReal))

/-! ## The flattened tokens -/

include hX in
theorem v0_eq (b : Fin 8) (m : Fin 4096) (d : Fin 256) :
    Cert.ReferenceIdeal.Read.val_main_v0 (F := Ideal) X (ix3 b m d) = ((Attn.tokens X b m d : ℝ) : EReal) := by
  rw [Cert.ReferenceIdeal.Read.val_main_v0_apply, idx_v0, hX]
  rfl

/-! ## The three projections -/

include hX hWq hBq in
theorem v4_eq (b : Fin 8) (m : Fin 4096) (e : Fin 256) :
    Cert.ReferenceIdeal.Read.val_main_v4 (F := Ideal) X Wq Bq (ix3 b m e)
      = ((Attn.proj (Attn.tokens X b) (Attn.mat Wq) (Attn.vec Bq) m e : ℝ) : EReal) := by
  rw [Cert.ReferenceIdeal.Read.val_main_v4_apply, Cert.ReferenceIdeal.Read.val_main_v1_apply,
    Cert.ReferenceIdeal.Read.val_main_v3_apply, Cert.ReferenceIdeal.Read.val_main_v2_apply, idx_bias]
  exact dot_add_coe (fun k => Attn.tokens X b m k) (fun k => Attn.mat Wq e k) (Attn.vec Bq e) _ _ _
    (fun k => by rw [lidx_proj, v0_eq X hX]) (fun k => by rw [ridx_proj, hWq]; rfl) (by rw [hBq]; rfl)

include hX hWk hBk in
theorem v8_eq (b : Fin 8) (m : Fin 4096) (e : Fin 256) :
    Cert.ReferenceIdeal.Read.val_main_v8 (F := Ideal) X Wk Bk (ix3 b m e)
      = ((Attn.proj (Attn.tokens X b) (Attn.mat Wk) (Attn.vec Bk) m e : ℝ) : EReal) := by
  rw [Cert.ReferenceIdeal.Read.val_main_v8_apply, Cert.ReferenceIdeal.Read.val_main_v5_apply,
    Cert.ReferenceIdeal.Read.val_main_v7_apply, Cert.ReferenceIdeal.Read.val_main_v6_apply]
  exact dot_add_coe (fun k => Attn.tokens X b m k) (fun k => Attn.mat Wk e k) (Attn.vec Bk e) _ _ _
    (fun k => by rw [show Cert.ReferenceIdeal.Read.lidx_main_v5 (ix3 b m e) k = ix3 b m k from lidx_proj b m e k, v0_eq X hX])
    (fun k => by rw [show Cert.ReferenceIdeal.Read.ridx_main_v5 (ix3 b m e) k = ix2 e k from ridx_proj b m e k, hWk]; rfl)
    (by rw [show Cert.ReferenceIdeal.Read.idx_main_v6 (Cert.ReferenceIdeal.Read.idx_main_v7 (ix3 b m e)) = ix1 e from idx_bias b m e, hBk]; rfl)

include hX hWv hBv in
theorem v12_eq (b : Fin 8) (m : Fin 4096) (e : Fin 256) :
    Cert.ReferenceIdeal.Read.val_main_v12 (F := Ideal) X Wv Bv (ix3 b m e)
      = ((Attn.proj (Attn.tokens X b) (Attn.mat Wv) (Attn.vec Bv) m e : ℝ) : EReal) := by
  rw [Cert.ReferenceIdeal.Read.val_main_v12_apply, Cert.ReferenceIdeal.Read.val_main_v9_apply,
    Cert.ReferenceIdeal.Read.val_main_v11_apply, Cert.ReferenceIdeal.Read.val_main_v10_apply]
  exact dot_add_coe (fun k => Attn.tokens X b m k) (fun k => Attn.mat Wv e k) (Attn.vec Bv e) _ _ _
    (fun k => by rw [show Cert.ReferenceIdeal.Read.lidx_main_v9 (ix3 b m e) k = ix3 b m k from lidx_proj b m e k, v0_eq X hX])
    (fun k => by rw [show Cert.ReferenceIdeal.Read.ridx_main_v9 (ix3 b m e) k = ix2 e k from ridx_proj b m e k, hWv]; rfl)
    (by rw [show Cert.ReferenceIdeal.Read.idx_main_v10 (Cert.ReferenceIdeal.Read.idx_main_v11 (ix3 b m e)) = ix1 e from idx_bias b m e, hBv]; rfl)

/-! ## The scores -/

theorem lidx_score (b : Fin 8) (q j : Fin 4096) (k : Fin 256) :
    Cert.ReferenceIdeal.Read.lidx_main_v13 (ix3 b q j) k = ix3 b q k := by
  funext a; match a with | ⟨0, _⟩ => rfl | ⟨1, _⟩ => rfl | ⟨2, _⟩ => rfl

theorem ridx_score (b : Fin 8) (q j : Fin 4096) (k : Fin 256) :
    Cert.ReferenceIdeal.Read.ridx_main_v13 (ix3 b q j) k = ix3 b j k := by
  funext a; match a with | ⟨0, _⟩ => rfl | ⟨1, _⟩ => rfl | ⟨2, _⟩ => rfl

/-- The splat of the divisor is 16 at every index. -/
theorem v14_eq (i : Cert.ReferenceIdeal.S8x4096x4096.Idx) :
    Cert.ReferenceIdeal.Read.val_main_v14 (F := Ideal) i = ((16 : ℝ) : EReal) := by
  rw [Cert.ReferenceIdeal.Read.val_main_v14_apply, Cert.ReferenceIdeal.Read.val_main_cst_apply]
  exact Cert.Consts.ofBits_16

include hX hWq hBq hWk hBk in
theorem v15_eq (b : Fin 8) (q j : Fin 4096) :
    Cert.ReferenceIdeal.Read.val_main_v15 (F := Ideal) X Wq Bq Wk Bk (ix3 b q j)
      = ((Attn.score (Attn.proj (Attn.tokens X b) (Attn.mat Wq) (Attn.vec Bq))
          (Attn.proj (Attn.tokens X b) (Attn.mat Wk) (Attn.vec Bk)) q j : ℝ) : EReal) := by
  rw [Cert.ReferenceIdeal.Read.val_main_v15_apply, v14_eq, Cert.ReferenceIdeal.Read.val_main_v13_apply,
    ERealSum.sum_mul_eq_coe Finset.univ _ _
      (fun k => Attn.proj (Attn.tokens X b) (Attn.mat Wq) (Attn.vec Bq) q k)
      (fun k => Attn.proj (Attn.tokens X b) (Attn.mat Wk) (Attn.vec Bk) j k)
      (fun k _ => by rw [lidx_score, v4_eq X Wq Bq hX hWq hBq]) (fun k _ => by rw [ridx_score, v8_eq X Wk Bk hX hWk hBk])]
  exact div_coe_coe _ 16 (by norm_num)

/-! ## The row maximum is a real number -/

/-- The greatest of finitely many reals over a nonempty index set, starting from -∞, is a real number. -/
theorem fold_max_real {ι : Type} (s : Finset ι) (hs : s.Nonempty) (g : ι → EReal)
    (hg : ∀ k, ∃ r : ℝ, g k = (r : EReal)) : ∃ M : ℝ, s.fold max (⊥ : EReal) g = (M : EReal) := by
  have h1 : s.fold max (⊥ : EReal) g < ⊤ := by
    rw [Finset.fold_max_lt]
    exact ⟨bot_lt_top, fun k _ => by obtain ⟨r, hr⟩ := hg k; rw [hr]; exact EReal.coe_lt_top r⟩
  have h2 : ⊥ < s.fold max (⊥ : EReal) g := by
    rw [Finset.lt_fold_max]
    obtain ⟨k, hk⟩ := hs
    exact Or.inr ⟨k, hk, by obtain ⟨r, hr⟩ := hg k; rw [hr]; exact EReal.bot_lt_coe r⟩
  exact ⟨(s.fold max ⊥ g).toReal, (EReal.coe_toReal h1.ne h2.ne').symm⟩

include hX hWq hBq hWk hBk in
theorem v18_real (b : Fin 8) (q : Fin 4096) :
    ∃ M : ℝ, Cert.ReferenceIdeal.Read.val_main_v18 (F := Ideal) X Wq Bq Wk Bk (ix2 b q) = (M : EReal) := by
  have hall : ∀ i, ∃ r : ℝ, Cert.ReferenceIdeal.Read.val_main_v15 (F := Ideal) X Wq Bq Wk Bk i = (r : EReal) :=
    fun i => ⟨_, (congrArg _ (eq_ix3 i)).trans (v15_eq X Wq Bq Wk Bk hX hWq hBq hWk hBk (i 0) (i 1) (i 2))⟩
  rw [Cert.ReferenceIdeal.Read.val_main_v18_apply, Cert.ReferenceIdeal.Read.val_main_v17_apply,
    Cert.ReferenceIdeal.Read.val_main_cst_1_apply]
  show ∃ M : ℝ, max (Ideal.ofBits .f32 0xFF800000#32)
    (Cert.ReferenceIdeal.Read.val_main_v16 (F := Ideal) X Wq Bq Wk Bk (ix2 b q)) = (M : EReal)
  rw [Cert.Consts.ofBits_bot, max_eq_right bot_le]
  unfold Cert.ReferenceIdeal.Read.val_main_v16
  rw [Host.reduce_eq_fold_single (FloatOps.maximumf (F := Ideal) (φ := .f32)) _ _ _
    (by decide : Cert.ReferenceIdeal.S8x4096x4096.Reduces [2] Cert.ReferenceIdeal.S8x4096) _ (ix2 b q),
    Cert.ReferenceIdeal.Read.val_main_cst_0_apply]
  show ∃ M : ℝ, Finset.fold max (Ideal.ofBits .f32 0xFF800000#32) _ (Finset.univ : Finset (Fin 4096)) = (M : EReal)
  rw [Cert.Consts.ofBits_bot]
  exact fold_max_real Finset.univ ⟨⟨0, by decide⟩, Finset.mem_univ _⟩ _ (fun k => hall _)

/-! ## The softmax weights -/

theorem idx_rowmax (b : Fin 8) (q j : Fin 4096) :
    Cert.ReferenceIdeal.Read.idx_main_v19 (Cert.ReferenceIdeal.Read.idx_main_v20 (ix3 b q j)) = ix2 b q := by
  funext a; match a with | ⟨0, _⟩ => rfl | ⟨1, _⟩ => rfl

theorem idx_rowsum (b : Fin 8) (q j : Fin 4096) :
    Cert.ReferenceIdeal.Read.idx_main_v24 (Cert.ReferenceIdeal.Read.idx_main_v25 (ix3 b q j)) = ix2 b q := by
  funext a; match a with | ⟨0, _⟩ => rfl | ⟨1, _⟩ => rfl

theorem idx_sum (b : Fin 8) (q k : Fin 4096) :
    Cert.ReferenceIdeal.Read.idx_main_v23 (ix2 b q) k = ix3 b q k := by
  funext a; match a with | ⟨0, _⟩ => rfl | ⟨1, _⟩ => rfl | ⟨2, _⟩ => rfl

include hX hWq hBq hWk hBk in
theorem v22_eq (b : Fin 8) (q : Fin 4096) (M : ℝ)
    (hM : Cert.ReferenceIdeal.Read.val_main_v18 (F := Ideal) X Wq Bq Wk Bk (ix2 b q) = (M : EReal)) (j : Fin 4096) :
    Cert.ReferenceIdeal.Read.val_main_v22 (F := Ideal) X Wq Bq Wk Bk (ix3 b q j)
      = ((Real.exp (Attn.score (Attn.proj (Attn.tokens X b) (Attn.mat Wq) (Attn.vec Bq))
          (Attn.proj (Attn.tokens X b) (Attn.mat Wk) (Attn.vec Bk)) q j - M) : ℝ) : EReal) := by
  rw [Cert.ReferenceIdeal.Read.val_main_v22_apply, Cert.ReferenceIdeal.Read.val_main_v21_apply,
    Cert.ReferenceIdeal.Read.val_main_v20_apply, Cert.ReferenceIdeal.Read.val_main_v19_apply, idx_rowmax, hM,
    v15_eq X Wq Bq Wk Bk hX hWq hBq hWk hBk]
  rw [Ideal.hostUnary_exp_def, Ideal.subf_def, ← EReal.coe_sub, Ideal.exp_coe]

include hX hWq hBq hWk hBk in
theorem v23_eq (b : Fin 8) (q : Fin 4096) (M : ℝ)
    (hM : Cert.ReferenceIdeal.Read.val_main_v18 (F := Ideal) X Wq Bq Wk Bk (ix2 b q) = (M : EReal)) :
    Cert.ReferenceIdeal.Read.val_main_v23 (F := Ideal) X Wq Bq Wk Bk (ix2 b q)
      = ((∑ k : Fin 4096, Real.exp (Attn.score (Attn.proj (Attn.tokens X b) (Attn.mat Wq) (Attn.vec Bq))
          (Attn.proj (Attn.tokens X b) (Attn.mat Wk) (Attn.vec Bk)) q k - M) : ℝ) : EReal) := by
  rw [Cert.ReferenceIdeal.Read.val_main_v23_apply, Cert.ReferenceIdeal.Read.val_main_cst_2_apply]
  show Ideal.ofBits .f32 0x00000000#32 + _ = _
  rw [Cert.Consts.ofBits_zero, zero_add]
  exact ERealSum.sum_eq_coe Finset.univ _ _
    (fun k _ => by rw [idx_sum, v22_eq X Wq Bq Wk Bk hX hWq hBq hWk hBk b q M hM])

include hX hWq hBq hWk hBk in
theorem v26_eq (b : Fin 8) (q : Fin 4096) (M : ℝ)
    (hM : Cert.ReferenceIdeal.Read.val_main_v18 (F := Ideal) X Wq Bq Wk Bk (ix2 b q) = (M : EReal)) (j : Fin 4096) :
    Cert.ReferenceIdeal.Read.val_main_v26 (F := Ideal) X Wq Bq Wk Bk (ix3 b q j)
      = ((Real.exp (Attn.score (Attn.proj (Attn.tokens X b) (Attn.mat Wq) (Attn.vec Bq))
            (Attn.proj (Attn.tokens X b) (Attn.mat Wk) (Attn.vec Bk)) q j - M)
          / ∑ k : Fin 4096, Real.exp (Attn.score (Attn.proj (Attn.tokens X b) (Attn.mat Wq) (Attn.vec Bq))
            (Attn.proj (Attn.tokens X b) (Attn.mat Wk) (Attn.vec Bk)) q k - M) : ℝ) : EReal) := by
  rw [Cert.ReferenceIdeal.Read.val_main_v26_apply, Cert.ReferenceIdeal.Read.val_main_v25_apply,
    Cert.ReferenceIdeal.Read.val_main_v24_apply, idx_rowsum, v23_eq X Wq Bq Wk Bk hX hWq hBq hWk hBk b q M hM,
    v22_eq X Wq Bq Wk Bk hX hWq hBq hWk hBk b q M hM]
  exact div_coe_coe _ _
    (ne_of_gt (Finset.sum_pos (fun k _ => Real.exp_pos _) ⟨⟨0, by decide⟩, Finset.mem_univ _⟩))

/-! ## The weighted sum of the values, and the result -/

theorem lidx_out (b : Fin 8) (q : Fin 4096) (e : Fin 256) (k : Fin 4096) :
    Cert.ReferenceIdeal.Read.lidx_main_v27 (ix3 b q e) k = ix3 b q k := by
  funext a; match a with | ⟨0, _⟩ => rfl | ⟨1, _⟩ => rfl | ⟨2, _⟩ => rfl

theorem ridx_out (b : Fin 8) (q : Fin 4096) (e : Fin 256) (k : Fin 4096) :
    Cert.ReferenceIdeal.Read.ridx_main_v27 (ix3 b q e) k = ix3 b k e := by
  funext a; match a with | ⟨0, _⟩ => rfl | ⟨1, _⟩ => rfl | ⟨2, _⟩ => rfl

include hX hWq hBq hWk hBk hWv hBv in
theorem v27_eq (b : Fin 8) (q : Fin 4096) (e : Fin 256) :
    Cert.ReferenceIdeal.Read.val_main_v27 (F := Ideal) X Wq Bq Wk Bk Wv Bv (ix3 b q e)
      = ((Attn.attn (Attn.tokens X b) (Attn.mat Wq) (Attn.vec Bq) (Attn.mat Wk) (Attn.vec Bk) (Attn.mat Wv) (Attn.vec Bv)
          q e : ℝ) : EReal) := by
  obtain ⟨M, hM⟩ := v18_real X Wq Bq Wk Bk hX hWq hBq hWk hBk b q
  rw [Cert.ReferenceIdeal.Read.val_main_v27_apply,
    ERealSum.sum_mul_eq_coe Finset.univ _ _
      (fun k => Real.exp (Attn.score (Attn.proj (Attn.tokens X b) (Attn.mat Wq) (Attn.vec Bq))
            (Attn.proj (Attn.tokens X b) (Attn.mat Wk) (Attn.vec Bk)) q k - M)
          / ∑ k' : Fin 4096, Real.exp (Attn.score (Attn.proj (Attn.tokens X b) (Attn.mat Wq) (Attn.vec Bq))
            (Attn.proj (Attn.tokens X b) (Attn.mat Wk) (Attn.vec Bk)) q k' - M))
      (fun k => Attn.proj (Attn.tokens X b) (Attn.mat Wv) (Attn.vec Bv) k e)
      (fun k _ => by rw [lidx_out, v26_eq X Wq Bq Wk Bk hX hWq hBq hWk hBk b q M hM])
      (fun k _ => by rw [ridx_out, v12_eq X Wv Bv hX hWv hBv])]
  exact congrArg (fun r : ℝ => (r : EReal)) (Attn.wmean_of_normalized
    (fun j => Attn.score (Attn.proj (Attn.tokens X b) (Attn.mat Wq) (Attn.vec Bq))
      (Attn.proj (Attn.tokens X b) (Attn.mat Wk) (Attn.vec Bk)) q j)
    (fun j => Attn.proj (Attn.tokens X b) (Attn.mat Wv) (Attn.vec Bv) j e) M)

include hX hWq hBq hWk hBk hWv hBv in
/-- The result at (b, s, n, e) is the attention output of batch entry b at row s · 256 + n and feature e. -/
theorem v28_eq (b : Fin 8) (s : Fin 16) (n : Fin 256) (e : Fin 256) :
    Cert.ReferenceIdeal.Read.val_main_v28 (F := Ideal) X Wq Bq Wk Bk Wv Bv (ix4 b s n e)
      = ((Attn.attn (Attn.tokens X b) (Attn.mat Wq) (Attn.vec Bq) (Attn.mat Wk) (Attn.vec Bk) (Attn.mat Wv) (Attn.vec Bv)
          (Attn.flat s n) e : ℝ) : EReal) := by
  rw [Cert.ReferenceIdeal.Read.val_main_v28_apply, idx_v28, v27_eq X Wq Bq Wk Bk Wv Bv hX hWq hBq hWk hBk hWv hBv]

include hX hWq hBq hWk hBk hWv hBv in
/-- The reference program's result is the attention output over the reals, read as extended reals. -/
theorem ref_eq :
    Cert.ReferenceIdeal.Read.val_main_v28 (F := Ideal) X Wq Bq Wk Bk Wv Bv = Attn.G X Wq Bq Wk Bk Wv Bv := by
  funext i
  exact (congrArg (Cert.ReferenceIdeal.Read.val_main_v28 (F := Ideal) X Wq Bq Wk Bk Wv Bv) (eq_ix4 i)).trans
    (v28_eq X Wq Bq Wk Bk Wv Bv hX hWq hBq hWk hBk hWv hBv (i 0) (i 1) (i 2) (i 3))

end Stages

end Cert.ReferenceIdeal.RefValue

end
-- ==== Proof.Finite.lean ====
/-
  The precondition says that every entry of every argument array has absolute value strictly below +∞.  Over the
  extended reals that is exactly: every entry is (the coercion of) a real number.
-/
import proofs.«174132_j72181220376900_2_alg».proof.Pre_finite_inputs
import proofs.«174132_j72181220376900_2_alg».proof.Proof.Gen.Pre_finite_inputs
import Idealize.ShloMosaic.Lib.ReduceAll
import Idealize.ShloMosaic.Lib.ValueIdx
import Idealize.ShloMosaic.PureOps.Ideal.Laws
import proofs.«174132_j72181220376900_2_alg».proof.Proof.Consts

namespace Cert.Finite

open Idealize.ShloMosaic Idealize.ShloMosaic.ValueIdx

/-- The rank-0 shape has exactly one index. -/
instance : Subsingleton Cert.Pre_finite_inputs.S_.Idx := ⟨fun a b => funext fun d => d.elim0⟩

/-- An extended real whose absolute value max x (-x) lies strictly below +∞ is neither +∞ nor -∞, so it is the
    coercion of its real part. -/
theorem real_of_abs_lt_top (x : EReal)
    (h : Ideal.cmp .olt (max x (-x)) (Ideal.ofBits .f32 0x7F800000#32) = 1#1) :
    x = ((x.toReal : ℝ) : EReal) := by
  rw [Cert.Consts.ofBits_top] at h
  have hlt : max x (-x) < ⊤ := by
    by_contra hn
    simp [Ideal.cmp, hn] at h
  have h1 : x ≠ ⊤ := by rintro rfl; simp at hlt
  have h2 : x ≠ ⊥ := by rintro rfl; simp at hlt
  exact (EReal.coe_toReal h1 h2).symm

/-- A one-bit conjunction of two arrays that reads 1 at an index has both of its operands 1 there. -/
theorem andi_split {s : Shape} (a b : IVec s 1) (i : s.Idx) (h : andi a b i = 1#1) : a i = 1#1 ∧ b i = 1#1 :=
  IntOp.andi_eq_one.1 h

/-- One conjunct of the precondition: if the conjunction over all indices of |x i| < +∞ is 1, every x i is a real. -/
theorem all_real {s : Shape} {axes : List (Fin s.rank)} (x : s.Idx → EReal) (top : s.Idx → EReal)
    (htop : ∀ i, top i = Ideal.ofBits .f32 0x7F800000#32)
    (init : Cert.Pre_finite_inputs.S_.Idx → BitVec 1) (hr : s.ReducesTo axes Cert.Pre_finite_inputs.S_)
    (hu : 0 < Cert.Pre_finite_inputs.S_.numel)
    (e : Host.reduce IntOp.andi (cmpf (F := Ideal) (φ := .f32) .olt (Host.absf (F := Ideal) (φ := .f32) x) top) init hr hu ix0 = 1#1)
    (i : s.Idx) : x i = (((x i).toReal : ℝ) : EReal) := by
  have hi := Host.reduce_andi_all _ init hr hu ix0 e i
  refine real_of_abs_lt_top (x i) ?_
  rw [← htop i]
  exact hi

theorem real_of_pre [Cert.Pre_finite_inputs.Facts]
    (X : Cert.Pre_finite_inputs.S8x16x256x256.Idx → EReal)
    (Wq : Cert.Pre_finite_inputs.S256x256.Idx → EReal) (Bq : Cert.Pre_finite_inputs.S256.Idx → EReal)
    (Wk : Cert.Pre_finite_inputs.S256x256.Idx → EReal) (Bk : Cert.Pre_finite_inputs.S256.Idx → EReal)
    (Wv : Cert.Pre_finite_inputs.S256x256.Idx → EReal) (Bv : Cert.Pre_finite_inputs.S256.Idx → EReal)
    (h : Cert.Pre_finite_inputs.fn (F := Ideal) X Wq Bq Wk Bk Wv Bv = (fun _ => 1#1)) :
    (∀ i, X i = (((X i).toReal : ℝ) : EReal)) ∧ (∀ i, Wq i = (((Wq i).toReal : ℝ) : EReal))
      ∧ (∀ i, Bq i = (((Bq i).toReal : ℝ) : EReal)) ∧ (∀ i, Wk i = (((Wk i).toReal : ℝ) : EReal))
      ∧ (∀ i, Bk i = (((Bk i).toReal : ℝ) : EReal)) ∧ (∀ i, Wv i = (((Wv i).toReal : ℝ) : EReal))
      ∧ (∀ i, Bv i = (((Bv i).toReal : ℝ) : EReal)) := by
  have h0 := congrFun h ValueIdx.ix0
  dsimp only [Cert.Pre_finite_inputs.fn, Cert.Pre_finite_inputs.fn_part1] at h0
  obtain ⟨h0, hBv⟩ := andi_split _ _ _ h0
  obtain ⟨h0, hWv⟩ := andi_split _ _ _ h0
  obtain ⟨h0, hBk⟩ := andi_split _ _ _ h0
  obtain ⟨h0, hWk⟩ := andi_split _ _ _ h0
  obtain ⟨h0, hBq⟩ := andi_split _ _ _ h0
  obtain ⟨hX, hWq⟩ := andi_split _ _ _ h0
  exact ⟨all_real X _ (fun _ => rfl) _ _ _ hX, all_real Wq _ (fun _ => rfl) _ _ _ hWq,
    all_real Bq _ (fun _ => rfl) _ _ _ hBq, all_real Wk _ (fun _ => rfl) _ _ _ hWk,
    all_real Bk _ (fun _ => rfl) _ _ _ hBk, all_real Wv _ (fun _ => rfl) _ _ _ hWv,
    all_real Bv _ (fun _ => rfl) _ _ _ hBv⟩

end Cert.Finite
-- ==== Proof.lean ====
/-
  The claim: the attention kernel equals the jnp reference over the extended reals.

  Both programs compute, for every batch entry, query row and feature, the softmax-weighted mean of the value
  projection under the scaled scores of the query projection against the key projection.  The reference normalizes
  the weights of a whole row after subtracting the row's maximum; the kernel streams the keys in four blocks with a
  running maximum and rescaled running sums, with every matrix product split into a leading part and a remainder that
  vanishes when a change of format is the identity, and with the scale 1/16 applied to the queries instead of the
  scores.  Under the precondition every argument entry is a real number, so no infinity arises and both results are
  the coercion of the same real number, index by index (Attn.G).  The three frames are the generated ones (the
  reference's is its generated run with the result dropped); each ledger entry of the ideal pass is its rule's statement.
-/
import proofs.«174132_j72181220376900_2_alg».proof.Defs
import proofs.«174132_j72181220376900_2_alg».proof.Proof.Gen.Kernel
import proofs.«174132_j72181220376900_2_alg».proof.Proof.Gen.Kernel.Skeleton
import proofs.«174132_j72181220376900_2_alg».proof.Proof.Gen.Kernel.Launch
import proofs.«174132_j72181220376900_2_alg».proof.Proof.Gen.Kernel.Points
import proofs.«174132_j72181220376900_2_alg».proof.Proof.Gen.Kernel.Frame
import proofs.«174132_j72181220376900_2_alg».proof.Proof.Gen.KernelIdeal
import proofs.«174132_j72181220376900_2_alg».proof.Proof.Gen.KernelIdeal.Skeleton
import proofs.«174132_j72181220376900_2_alg».proof.Proof.Gen.KernelIdeal.Launch
import proofs.«174132_j72181220376900_2_alg».proof.Proof.Gen.KernelIdeal.Points
import proofs.«174132_j72181220376900_2_alg».proof.Proof.Gen.KernelIdeal.Frame
import proofs.«174132_j72181220376900_2_alg».proof.Proof.Gen.ReferenceIdeal
import proofs.«174132_j72181220376900_2_alg».proof.Proof.Gen.Pre_finite_inputs
import proofs.«174132_j72181220376900_2_alg».proof.Proof.Gen.ReferenceIdeal.Run
import proofs.«174132_j72181220376900_2_alg».proof.Proof.Gen.ReferenceIdeal.Read
import proofs.«174132_j72181220376900_2_alg».proof.Proof.KernelArray
import proofs.«174132_j72181220376900_2_alg».proof.Proof.RefValue
import proofs.«174132_j72181220376900_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass's six rewrites: a narrowing to bf16 followed by the widening back is the identity at the exact values. -/
theorem preserves : Cert.preserves_Kernel_KernelIdeal :=
  ⟨IdealRules.truncf_extf.statement Cert.KernelIdeal.S4096x256 .f32 .bf16,
   IdealRules.truncf_extf.statement Cert.KernelIdeal.S256x256 .f32 .bf16,
   IdealRules.truncf_extf.statement Cert.KernelIdeal.S4096x256 .f32 .bf16,
   IdealRules.truncf_extf.statement Cert.KernelIdeal.S1024x256 .f32 .bf16,
   IdealRules.truncf_extf.statement Cert.KernelIdeal.S256x256 .f32 .bf16,
   IdealRules.truncf_extf.statement Cert.KernelIdeal.S1024x256 .f32 .bf16⟩

/-- Both runs end at the specification's result of the (agreeing, real-valued) arguments. -/
theorem algebraic : Cert.algebraic_KernelIdeal_ReferenceIdeal := by
  intro m ρ m' ρ' hpre hagree
  have hr : ∀ c, Cert.KernelIdeal.Arr.RealArgs m c := fun c => by
    obtain ⟨h0, h1, h2, h3, h4, h5, h6⟩ := Cert.Finite.real_of_pre _ _ _ _ _ _ _ (hpre c)
    exact ⟨h0, h1, h2, h3, h4, h5, h6⟩
  refine ⟨_, Cert.KernelIdeal.Arr.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2.1, (hagree c).2.2.2.2.2.1, (hagree c).2.2.2.2.2.2]
  exact Cert.ReferenceIdeal.RefValue.ref_eq _ _ _ _ _ _ _ (hr c).hX (hr c).hWq (hr c).hBq (hr c).hWk (hr c).hBk (hr c).hWv (hr c).hBv

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
